-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x784 : Shape := ⟨2, ![1024, 784]⟩
abbrev S784x1024 : Shape := ⟨2, ![784, 1024]⟩
abbrev S1024 : Shape := ⟨1, ![1024]⟩
abbrev S1024x1024 : Shape := ⟨2, ![1024, 1024]⟩
abbrev S1024x10 : Shape := ⟨2, ![1024, 10]⟩
abbrev S10 : Shape := ⟨1, ![10]⟩
abbrev S32x784x1024 : Shape := ⟨3, ![32, 784, 1024]⟩
abbrev S32x1x1024 : Shape := ⟨3, ![32, 1, 1024]⟩
abbrev S32x1024x1024 : Shape := ⟨3, ![32, 1024, 1024]⟩
abbrev S32x1024x10 : Shape := ⟨3, ![32, 1024, 10]⟩
abbrev S32x1x10 : Shape := ⟨3, ![32, 1, 10]⟩
abbrev S_ : Shape := ⟨0, ![]⟩

class Facts : Prop where
  bcast_S_S1024x784 : S_.BroadcastsInDim S1024x784 (![] : Fin 0 → Fin S1024x784.rank)
  reducesTo_S1024x784_S_d0_1 : S1024x784.ReducesTo [0, 1] S_
  h_S_ : 0 < S_.numel
  bcast_S_S784x1024 : S_.BroadcastsInDim S784x1024 (![] : Fin 0 → Fin S784x1024.rank)
  reducesTo_S784x1024_S_d0_1 : S784x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x10 : S_.BroadcastsInDim S1024x10 (![] : Fin 0 → Fin S1024x10.rank)
  reducesTo_S1024x10_S_d0_1 : S1024x10.ReducesTo [0, 1] S_
  bcast_S_S10 : S_.BroadcastsInDim S10 (![] : Fin 0 → Fin S10.rank)
  reducesTo_S10_S_d0 : S10.ReducesTo [0] S_
  bcast_S_S32x784x1024 : S_.BroadcastsInDim S32x784x1024 (![] : Fin 0 → Fin S32x784x1024.rank)
  reducesTo_S32x784x1024_S_d0_1_2 : S32x784x1024.ReducesTo [0, 1, 2] S_
  bcast_S_S32x1x1024 : S_.BroadcastsInDim S32x1x1024 (![] : Fin 0 → Fin S32x1x1024.rank)
  reducesTo_S32x1x1024_S_d0_1_2 : S32x1x1024.ReducesTo [0, 1, 2] S_
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S32x1024x10 : S_.BroadcastsInDim S32x1024x10 (![] : Fin 0 → Fin S32x1024x10.rank)
  reducesTo_S32x1024x10_S_d0_1_2 : S32x1024x10.ReducesTo [0, 1, 2] S_
  bcast_S_S32x1x10 : S_.BroadcastsInDim S32x1x10 (![] : Fin 0 → Fin S32x1x10.rank)
  reducesTo_S32x1x10_S_d0_1_2 : S32x1x10.ReducesTo [0, 1, 2] S_

variable [Facts]

def fn_part5 {F : FTy → Type} [FloatOps F] (main_arg18 : FVec F S32x1x10 .f32) (main_v83 : IVec S_ 1) (main_v84 : FVec F S32x1024x10 .f32) (main_cst_32 : FVec F S_ .f32) : IVec S_ 1 :=
  let main_v85 : FVec F S32x1024x10 .f32 := broadcastInDim S32x1024x10 ![] bcast_S_S32x1024x10 main_cst_32
  let main_v86 : IVec S32x1024x10 1 := cmpf .olt main_v84 main_v85
  let main_c_33 : IVec S_ 1 := constantI S_ 1 1#1
  let main_v87 : IVec S_ 1 := (fun x v => Host.reduce IntOp.andi x v reducesTo_S32x1024x10_S_d0_1_2 h_S_) main_v86 main_c_33
  let main_v88 : IVec S_ 1 := andi main_v83 main_v87
  let main_v89 : FVec F S32x1x10 .f32 := Host.absf main_arg18
  let main_cst_34 : FVec F S_ .f32 := constant S_ .f32 0x7F800000#32
  let main_v90 : FVec F S32x1x10 .f32 := broadcastInDim S32x1x10 ![] bcast_S_S32x1x10 main_cst_34
  let main_v91 : IVec S32x1x10 1 := cmpf .olt main_v89 main_v90
  let main_c_35 : IVec S_ 1 := constantI S_ 1 1#1
  let main_v92 : IVec S_ 1 := (fun x v => Host.reduce IntOp.andi x v reducesTo_S32x1x10_S_d0_1_2 h_S_) main_v91 main_c_35
  let main_v93 : IVec S_ 1 := andi main_v88 main_v92
  main_v93

def fn_part4 {F : FTy → Type} [FloatOps F] (main_arg14 : FVec F S32x1x1024 .f32) (main_arg15 : FVec F S32x1024x1024 .f32) (main_arg16 : FVec F S32x1x1024 .f32) (main_arg17 : FVec F S32x1024x10 .f32) (main_arg18 : FVec F S32x1x10 .f32) (main_v63 : IVec S_ 1) (main_v67 : IVec S_ 1) : IVec S_ 1 :=
  let main_v68 : IVec S_ 1 := andi main_v63 main_v67
  let main_v69 : FVec F S32x1x1024 .f32 := Host.absf main_arg14
  let main_cst_26 : FVec F S_ .f32 := constant S_ .f32 0x7F800000#32
  let main_v70 : FVec F S32x1x1024 .f32 := broadcastInDim S32x1x1024 ![] bcast_S_S32x1x1024 main_cst_26
  let main_v71 : IVec S32x1x1024 1 := cmpf .olt main_v69 main_v70
  let main_c_27 : IVec S_ 1 := constantI S_ 1 1#1
  let main_v72 : IVec S_ 1 := (fun x v => Host.reduce IntOp.andi x v reducesTo_S32x1x1024_S_d0_1_2 h_S_) main_v71 main_c_27
  let main_v73 : IVec S_ 1 := andi main_v68 main_v72
  let main_v74 : FVec F S32x1024x1024 .f32 := Host.absf main_arg15
  let main_cst_28 : FVec F S_ .f32 := constant S_ .f32 0x7F800000#32
  let main_v75 : FVec F S32x1024x1024 .f32 := broadcastInDim S32x1024x1024 ![] bcast_S_S32x1024x1024 main_cst_28
  let main_v76 : IVec S32x1024x1024 1 := cmpf .olt main_v74 main_v75
  let main_c_29 : IVec S_ 1 := constantI S_ 1 1#1
  let main_v77 : IVec S_ 1 := (fun x v => Host.reduce IntOp.andi x v reducesTo_S32x1024x1024_S_d0_1_2 h_S_) main_v76 main_c_29
  let main_v78 : IVec S_ 1 := andi main_v73 main_v77
  let main_v79 : FVec F S32x1x1024 .f32 := Host.absf main_arg16
  let main_cst_30 : FVec F S_ .f32 := constant S_ .f32 0x7F800000#32
  let main_v80 : FVec F S32x1x1024 .f32 := broadcastInDim S32x1x1024 ![] bcast_S_S32x1x1024 main_cst_30
  let main_v81 : IVec S32x1x1024 1 := cmpf .olt main_v79 main_v80
  let main_c_31 : IVec S_ 1 := constantI S_ 1 1#1
  let main_v82 : IVec S_ 1 := (fun x v => Host.reduce IntOp.andi x v reducesTo_S32x1x1024_S_d0_1_2 h_S_) main_v81 main_c_31
  let main_v83 : IVec S_ 1 := andi main_v78 main_v82
  let main_v84 : FVec F S32x1024x10 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S10 .f32) (main_arg12 : FVec F S10 .f32) (main_arg13 : FVec F S32x784x1024 .f32) (main_arg14 : FVec F S32x1x1024 .f32) (main_arg15 : FVec F S32x1024x1024 .f32) (main_arg16 : FVec F S32x1x1024 .f32) (main_arg17 : FVec F S32x1024x10 .f32) (main_arg18 : FVec F S32x1x10 .f32) (main_v48 : IVec S_ 1) (main_v49 : FVec F S1024x10 .f32) (main_v50 : FVec F S1024x10 .f32) : IVec S_ 1 :=
  let main_v51 : IVec S1024x10 1 := cmpf .olt main_v49 main_v50
  let main_c_19 : IVec S_ 1 := constantI S_ 1 1#1
  let main_v52 : IVec S_ 1 := (fun x v => Host.reduce IntOp.andi x v reducesTo_S1024x10_S_d0_1 h_S_) main_v51 main_c_19
  let main_v53 : IVec S_ 1 := andi main_v48 main_v52
  let main_v54 : FVec F S10 .f32 := Host.absf main_arg11
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_v64 : FVec F S32x784x1024 .f32 := Host.absf main_arg13
  let main_cst_24 : FVec F S_ .f32 := constant S_ .f32 0x7F800000#32
  let main_v65 : FVec F S32x784x1024 .f32 := broadcastInDim S32x784x1024 ![] bcast_S_S32x784x1024 main_cst_24
  let main_v66 : IVec S32x784x1024 1 := cmpf .olt main_v64 main_v65
  let main_c_25 : IVec S_ 1 := constantI S_ 1 1#1
  let main_v67 : IVec S_ 1 := (fun x v => Host.reduce IntOp.andi x v reducesTo_S32x784x1024_S_d0_1_2 h_S_) main_v66 main_c_25
  fn_part4 (F := F) main_arg14 main_arg15 main_arg16 main_arg17 main_arg18 main_v63 main_v67

def fn_part2 {F : FTy → Type} [FloatOps F] (main_arg7 : FVec F S1024 .f32) (main_arg8 : FVec F S1024 .f32) (main_arg9 : FVec F S1024x10 .f32) (main_arg10 : FVec F S1024x10 .f32) (main_arg11 : FVec F S10 .f32) (main_arg12 : FVec F S10 .f32) (main_arg13 : FVec F S32x784x1024 .f32) (main_arg14 : FVec F S32x1x1024 .f32) (main_arg15 : FVec F S32x1024x1024 .f32) (main_arg16 : FVec F S32x1x1024 .f32) (main_arg17 : FVec F S32x1024x10 .f32) (main_arg18 : FVec F S32x1x10 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x10 .f32 := Host.absf main_arg9
  let main_cst_16 : FVec F S_ .f32 := constant S_ .f32 0x7F800000#32
  let main_v45 : FVec F S1024x10 .f32 := broadcastInDim S1024x10 ![] bcast_S_S1024x10 main_cst_16
  let main_v46 : IVec S1024x10 1 := cmpf .olt main_v44 main_v45
  let main_c_17 : IVec S_ 1 := constantI S_ 1 1#1
  let main_v47 : IVec S_ 1 := (fun x v => Host.reduce IntOp.andi x v reducesTo_S1024x10_S_d0_1 h_S_) main_v46 main_c_17
  let main_v48 : IVec S_ 1 := andi main_v43 main_v47
  let main_v49 : FVec F S1024x10 .f32 := Host.absf main_arg10
  let main_cst_18 : FVec F S_ .f32 := constant S_ .f32 0x7F800000#32
  let main_v50 : FVec F S1024x10 .f32 := broadcastInDim S1024x10 ![] bcast_S_S1024x10 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024 .f32) (main_arg9 : FVec F S1024x10 .f32) (main_arg10 : FVec F S1024x10 .f32) (main_arg11 : FVec F S10 .f32) (main_arg12 : FVec F S10 .f32) (main_arg13 : FVec F S32x784x1024 .f32) (main_arg14 : FVec F S32x1x1024 .f32) (main_arg15 : FVec F S32x1024x1024 .f32) (main_arg16 : FVec F S32x1x1024 .f32) (main_arg17 : FVec F S32x1024x10 .f32) (main_arg18 : FVec F S32x1x10 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S1024x784 .f32) (main_arg1 : FVec F S784x1024 .f32) (main_arg2 : FVec F S784x1024 .f32) (main_arg3 : FVec F S1024 .f32) (main_arg4 : FVec F S1024 .f32) (main_arg5 : FVec F S1024x1024 .f32) (main_arg6 : FVec F S1024x1024 .f32) (main_arg7 : FVec F S1024 .f32) (main_arg8 : FVec F S1024 .f32) (main_arg9 : FVec F S1024x10 .f32) (main_arg10 : FVec F S1024x10 .f32) (main_arg11 : FVec F S10 .f32) (main_arg12 : FVec F S10 .f32) (main_arg13 : FVec F S32x784x1024 .f32) (main_arg14 : FVec F S32x1x1024 .f32) (main_arg15 : FVec F S32x1024x1024 .f32) (main_arg16 : FVec F S32x1x1024 .f32) (main_arg17 : FVec F S32x1024x10 .f32) (main_arg18 : FVec F S32x1x10 .f32) : IVec S_ 1 :=
  let main_v0 : FVec F S1024x784 .f32 := Host.absf main_arg0
  let main_cst : FVec F S_ .f32 := constant S_ .f32 0x7F800000#32
  let main_v1 : FVec F S1024x784 .f32 := broadcastInDim S1024x784 ![] bcast_S_S1024x784 main_cst
  let main_v2 : IVec S1024x784 1 := cmpf .olt main_v0 main_v1
  let main_c : IVec S_ 1 := constantI S_ 1 1#1
  let main_v3 : IVec S_ 1 := (fun x v => Host.reduce IntOp.andi x v reducesTo_S1024x784_S_d0_1 h_S_) main_v2 main_c
  let main_v4 : FVec F S784x1024 .f32 := Host.absf main_arg1
  let main_cst_0 : FVec F S_ .f32 := constant S_ .f32 0x7F800000#32
  let main_v5 : FVec F S784x1024 .f32 := broadcastInDim S784x1024 ![] bcast_S_S784x1024 main_cst_0
  let main_v6 : IVec S784x1024 1 := cmpf .olt main_v4 main_v5
  let main_c_1 : IVec S_ 1 := constantI S_ 1 1#1
  let main_v7 : IVec S_ 1 := (fun x v => Host.reduce IntOp.andi x v reducesTo_S784x1024_S_d0_1 h_S_) main_v6 main_c_1
  let main_v8 : IVec S_ 1 := andi main_v3 main_v7
  let main_v9 : FVec F S784x1024 .f32 := Host.absf main_arg2
  let main_cst_2 : FVec F S_ .f32 := constant S_ .f32 0x7F800000#32
  let main_v10 : FVec F S784x1024 .f32 := broadcastInDim S784x1024 ![] bcast_S_S784x1024 main_cst_2
  let main_v11 : IVec S784x1024 1 := cmpf .olt main_v9 main_v10
  let main_c_3 : IVec S_ 1 := constantI S_ 1 1#1
  let main_v12 : IVec S_ 1 := (fun x v => Host.reduce IntOp.andi x v reducesTo_S784x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S1024x784 : Shape := ⟨2, ![1024, 784]⟩
abbrev S784x1024 : Shape := ⟨2, ![784, 1024]⟩
abbrev S1024 : Shape := ⟨1, ![1024]⟩
abbrev S1024x1024 : Shape := ⟨2, ![1024, 1024]⟩
abbrev S1024x10 : Shape := ⟨2, ![1024, 10]⟩
abbrev S10 : Shape := ⟨1, ![10]⟩
abbrev S32x784x1024 : Shape := ⟨3, ![32, 784, 1024]⟩
abbrev S32x1x1024 : Shape := ⟨3, ![32, 1, 1024]⟩
abbrev S32x1024x1024 : Shape := ⟨3, ![32, 1024, 1024]⟩
abbrev S32x1024x10 : Shape := ⟨3, ![32, 1024, 10]⟩
abbrev S32x1x10 : Shape := ⟨3, ![32, 1, 10]⟩
abbrev S_ : Shape := ⟨0, ![]⟩
abbrev S1x784x1024 : Shape := ⟨3, ![1, 784, 1024]⟩
abbrev S1x1x1024 : Shape := ⟨3, ![1, 1, 1024]⟩
abbrev S1x1024x1024 : Shape := ⟨3, ![1, 1024, 1024]⟩
abbrev S1x1024x10 : Shape := ⟨3, ![1, 1024, 10]⟩
abbrev S1x1x10 : Shape := ⟨3, ![1, 1, 10]⟩
abbrev S1x1024 : Shape := ⟨2, ![1, 1024]⟩
abbrev S1x10 : Shape := ⟨2, ![1, 10]⟩

abbrev nBuf : Space → Nat
  | .hbm => 44
  | .vmem => 28
  | .smem => 0
  | _ => 0

abbrev bufTy : (tb : Table) → Fin (tcTables nBuf tb) → BufTy
  | .hbm, ⟨0, _⟩ => ⟨S1024x784, .f32⟩
  | .hbm, ⟨1, _⟩ => ⟨S784x1024, .f32⟩
  | .hbm, ⟨2, _⟩ => ⟨S784x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x10, .f32⟩
  | .hbm, ⟨10, _⟩ => ⟨S1024x10, .f32⟩
  | .hbm, ⟨11, _⟩ => ⟨S10, .f32⟩
  | .hbm, ⟨12, _⟩ => ⟨S10, .f32⟩
  | .hbm, ⟨13, _⟩ => ⟨S32x784x1024, .f32⟩
  | .hbm, ⟨14, _⟩ => ⟨S32x1x1024, .f32⟩
  | .hbm, ⟨15, _⟩ => ⟨S32x1024x1024, .f32⟩
  | .hbm, ⟨16, _⟩ => ⟨S32x1x1024, .f32⟩
  | .hbm, ⟨17, _⟩ => ⟨S32x1024x10, .f32⟩
  | .hbm, ⟨18, _⟩ => ⟨S32x1x10, .f32⟩
  | .hbm, ⟨19, _⟩ => ⟨S_, .f32⟩
  | .hbm, ⟨20, _⟩ => ⟨S784x1024, .f32⟩
  | .hbm, ⟨21, _⟩ => ⟨S784x1024, .f32⟩
  | .hbm, ⟨22, _⟩ => ⟨S784x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S1024x10, .f32⟩
  | .hbm, ⟨37, _⟩ => ⟨S1024x10, .f32⟩
  | .hbm, ⟨38, _⟩ => ⟨S1024x10, .f32⟩
  | .hbm, ⟨39, _⟩ => ⟨S_, .f32⟩
  | .hbm, ⟨40, _⟩ => ⟨S10, .f32⟩
  | .hbm, ⟨41, _⟩ => ⟨S10, .f32⟩
  | .hbm, ⟨42, _⟩ => ⟨S10, .f32⟩
  | .hbm, ⟨43, _⟩ => ⟨S32x1024x10, .f32⟩
  | .local _ .vmem, ⟨0, _⟩ => ⟨S1024x784, .f32⟩
  | .local _ .vmem, ⟨1, _⟩ => ⟨S784x1024, .f32⟩
  | .local _ .vmem, ⟨2, _⟩ => ⟨S784x1024, .f32⟩
  | .local _ .vmem, ⟨3, _⟩ => ⟨S1024, .f32⟩
  | .local _ .vmem, ⟨4, _⟩ => ⟨S1024, .f32⟩
  | .local _ .vmem, ⟨5, _⟩ => ⟨S1024x1024, .f32⟩
  | .local _ .vmem, ⟨6, _⟩ => ⟨S1024x1024, .f32⟩
  | .local _ .vmem, ⟨7, _⟩ => ⟨S1024, .f32⟩
  | .local _ .vmem, ⟨8, _⟩ => ⟨S1024, .f32⟩
  | .local _ .vmem, ⟨9, _⟩ => ⟨S1024x10, .f32⟩
  | .local _ .vmem, ⟨10, _⟩ => ⟨S1024x10, .f32⟩
  | .local _ .vmem, ⟨11, _⟩ => ⟨S10, .f32⟩
  | .local _ .vmem, ⟨12, _⟩ => ⟨S10, .f32⟩
  | .local _ .vmem, ⟨13, _⟩ => ⟨S1x784x1024, .f32⟩
  | .local _ .vmem, ⟨14, _⟩ => ⟨S1x784x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1024x10, .f32⟩
  | .local _ .vmem, ⟨22, _⟩ => ⟨S1x1024x10, .f32⟩
  | .local _ .vmem, ⟨23, _⟩ => ⟨S1x1x10, .f32⟩
  | .local _ .vmem, ⟨24, _⟩ => ⟨S1x1x10, .f32⟩
  | .local _ .vmem, ⟨25, _⟩ => ⟨S1x1024x10, .f32⟩
  | .local _ .vmem, ⟨26, _⟩ => ⟨S1x1024x10, .f32⟩
  | .local _ .vmem, ⟨27, _⟩ => ⟨S1024x1024, .bf16⟩
  | _, _ => ⟨S1024x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_1 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_3 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg13_1 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_scratch0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem13_1 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x784 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S784x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S784x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S10 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x784x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1024x10 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x10 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1024x10 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bcast_S_S784x1024 : S_.BroadcastsInDim S784x1024 (![] : Fin 0 → Fin S784x1024.rank)
  bcast_S_S1024 : S_.BroadcastsInDim S1024 (![] : Fin 0 → Fin S1024.rank)
  bcast_S_S1024x1024 : S_.BroadcastsInDim S1024x1024 (![] : Fin 0 → Fin S1024x1024.rank)
  bcast_S_S1024x10 : S_.BroadcastsInDim S1024x10 (![] : Fin 0 → Fin S1024x10.rank)
  bcast_S_S10 : S_.BroadcastsInDim S10 (![] : Fin 0 → Fin S10.rank)
  inb_S1x784x1024_S1x784x1024_0_0_0 : ∀ a, (![0, 0, 0] : Fin 3 → Nat) a + S1x784x1024.size a ≤ S1x784x1024.size a
  h_S1x784x1024 : 0 < S1x784x1024.numel
  shapeCasts_S1x784x1024_S784x1024 : S1x784x1024.ShapeCasts S784x1024
  inb_S784x1024_S784x1024_0_0 : ∀ a, (![0, 0] : Fin 2 → Nat) a + S784x1024.size a ≤ S784x1024.size a
  h_S784x1024 : 0 < S784x1024.numel
  shapeCasts_S784x1024_S784x1024 : S784x1024.ShapeCasts S784x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  inb_S1024x784_S1024x784_0_0 : ∀ a, (![0, 0] : Fin 2 → Nat) a + S1024x784.size a ≤ S1024x784.size a
  h_S1024x784 : 0 < S1024x784.numel
  bitsLt_bf16_f32 : FTy.bits .bf16 < FTy.bits .f32
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x10_S1x1024x10_0_0_0 : ∀ a, (![0, 0, 0] : Fin 3 → Nat) a + S1x1024x10.size a ≤ S1x1024x10.size a
  h_S1x1024x10 : 0 < S1x1024x10.numel
  shapeCasts_S1x1024x10_S1024x10 : S1x1024x10.ShapeCasts S1024x10
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S1x1x10_S1x1x10_0_0_0 : ∀ a, (![0, 0, 0] : Fin 3 → Nat) a + S1x1x10.size a ≤ S1x1x10.size a
  h_S1x1x10 : 0 < S1x1x10.numel
  shapeCasts_S1x1x10_S1x10 : S1x1x10.ShapeCasts S1x10
  inb_S10_S10_0 : ∀ a, (![0] : Fin 1 → Nat) a + S10.size a ≤ S10.size a
  h_S10 : 0 < S10.numel
  shapeCasts_S10_S10 : S10.ShapeCasts S10
  shapeCasts_S10_S1x10 : S10.ShapeCasts S1x10
  broadcasts_S1x10_S1024x10 : S1x10.Broadcasts S1024x10
  shapeCasts_S1024x10_S1x1024x10 : S1024x10.ShapeCasts S1x1024x10
  dot_S1024x784_S784x1024_S1024x1024_1_0_0_1_n_n_wf : DotDims.WF S1024x784 S784x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x10_S1024x10_1_0_0_1_n_n_wf : DotDims.WF S1024x1024 S1024x10 S1024x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S1024x784.size a
  hwx0_0 : ∀ i : grid0.Coords, EltTy.bits .f32 = 32 ∨ (Rect.block (s := S1024x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x1024.size a ≤ S784x1024.size a
  hwx0_1 : ∀ i : grid0.Coords, EltTy.bits .f32 = 32 ∨ (Rect.block (s := S784x1024) S784x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S784x1024.size a ≤ S784x1024.size a
  hwx0_2 : ∀ i : grid0.Coords, EltTy.bits .f32 = 32 ∨ (Rect.block (s := S784x1024) S784x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .f32 = 32 ∨ (Rect.block (s := S1024x1024) S1024x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x10.size a ≤ S1024x10.size a
  hwx0_9 : ∀ i : grid0.Coords, EltTy.bits .f32 = 32 ∨ (Rect.block (s := S1024x10) S1024x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x10.size a ≤ S1024x10.size a
  hwx0_10 : ∀ i : grid0.Coords, EltTy.bits .f32 = 32 ∨ (Rect.block (s := S1024x10) S1024x10.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S10.size a ≤ S10.size a
  hwx0_11 : ∀ i : grid0.Coords, EltTy.bits .f32 = 32 ∨ (Rect.block (s := S10) S10.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S10.size a ≤ S10.size a
  hwx0_12 : ∀ i : grid0.Coords, EltTy.bits .f32 = 32 ∨ (Rect.block (s := S10) S10.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x784x1024.size a ≤ S32x784x1024.size a
  hwx0_13 : ∀ i : grid0.Coords, EltTy.bits .f32 = 32 ∨ (Rect.block (s := S32x784x1024) S1x784x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x1024.size a ≤ S32x1x1024.size a
  hwx0_14 : ∀ i : grid0.Coords, EltTy.bits .f32 = 32 ∨ (Rect.block (s := S32x1x1024) S1x1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1024x1024.size a ≤ S32x1024x1024.size a
  hwx0_15 : ∀ i : grid0.Coords, EltTy.bits .f32 = 32 ∨ (Rect.block (s := S32x1024x1024) S1x1024x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x1x1024.size a ≤ S32x1x1024.size a
  hwx0_16 : ∀ i : grid0.Coords, EltTy.bits .f32 = 32 ∨ (Rect.block (s := S32x1x1024) S1x1x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x1024x10.size a ≤ S32x1024x10.size a
  hwx0_17 : ∀ i : grid0.Coords, EltTy.bits .f32 = 32 ∨ (Rect.block (s := S32x1024x10) S1x1024x10.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x1x10.size a ≤ S32x1x10.size a
  hwx0_18 : ∀ i : grid0.Coords, EltTy.bits .f32 = 32 ∨ (Rect.block (s := S32x1x10) S1x1x10.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1x1024x10.size a ≤ S32x1024x10.size a
  hwx0_19 : ∀ i : grid0.Coords, EltTy.bits .f32 = 32 ∨ (Rect.block (s := S32x1024x10) S1x1024x10.size (cc0_transform_19 i) (hinb0_19 i)).WholeWords (EltTy.packing .f32)

variable [Facts₀]

def dot_S1024x784_S784x1024_S1024x1024_1_0_0_1_n_n : DotDims S1024x784 S784x1024 S1024x1024 where
  lhsContracting := [1]
  rhsContracting := [0]
  lhsNonContracting := [0]
  rhsNonContracting := [1]
  lhsBatch := []
  rhsBatch := []
  wf := dot_S1024x784_S784x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x10_S1024x10_1_0_0_1_n_n : DotDims S1024x1024 S1024x10 S1024x10 where
  lhsContracting := [1]
  rhsContracting := [0]
  lhsNonContracting := [0]
  rhsNonContracting := [1]
  lhsBatch := []
  rhsBatch := []
  wf := dot_S1024x1024_S1024x10_S1024x10_1_0_0_1_n_n_wf

abbrev win0_0 : Pipeline.Window sig grid0 :=
  Pipeline.Window.ofSpec (Memref.whole main_arg0) S1024x784.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S784x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S784x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1024x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S10.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S10.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1x784x1024.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1x1x1024.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S1x1024x1024.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S1x1x1024.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S1x1024x10.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S1x1x10.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v18) S1x1024x10.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S1024x784 : Shape := ⟨2, ![1024, 784]⟩
abbrev S784x1024 : Shape := ⟨2, ![784, 1024]⟩
abbrev S1024 : Shape := ⟨1, ![1024]⟩
abbrev S1024x1024 : Shape := ⟨2, ![1024, 1024]⟩
abbrev S1024x10 : Shape := ⟨2, ![1024, 10]⟩
abbrev S10 : Shape := ⟨1, ![10]⟩
abbrev S32x784x1024 : Shape := ⟨3, ![32, 784, 1024]⟩
abbrev S32x1x1024 : Shape := ⟨3, ![32, 1, 1024]⟩
abbrev S32x1024x1024 : Shape := ⟨3, ![32, 1024, 1024]⟩
abbrev S32x1024x10 : Shape := ⟨3, ![32, 1024, 10]⟩
abbrev S32x1x10 : Shape := ⟨3, ![32, 1, 10]⟩
abbrev S1x1024x784 : Shape := ⟨3, ![1, 1024, 784]⟩
abbrev S32x1024x784 : Shape := ⟨3, ![32, 1024, 784]⟩
abbrev S_ : Shape := ⟨0, ![]⟩
abbrev S1x784x1024 : Shape := ⟨3, ![1, 784, 1024]⟩
abbrev S1x1x1024 : Shape := ⟨3, ![1, 1, 1024]⟩
abbrev S1x1024x1024 : Shape := ⟨3, ![1, 1024, 1024]⟩
abbrev S1x1024x10 : Shape := ⟨3, ![1, 1024, 10]⟩
abbrev S1x1x10 : Shape := ⟨3, ![1, 1, 10]⟩

abbrev nBuf : Space → Nat
  | .hbm => 96
  | .vmem => 0
  | .smem => 0
  | _ => 0

abbrev bufTy : (tb : Table) → Fin (tcTables nBuf tb) → BufTy
  | .hbm, ⟨0, _⟩ => ⟨S1024x784, .f32⟩
  | .hbm, ⟨1, _⟩ => ⟨S784x1024, .f32⟩
  | .hbm, ⟨2, _⟩ => ⟨S784x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x10, .f32⟩
  | .hbm, ⟨10, _⟩ => ⟨S1024x10, .f32⟩
  | .hbm, ⟨11, _⟩ => ⟨S10, .f32⟩
  | .hbm, ⟨12, _⟩ => ⟨S10, .f32⟩
  | .hbm, ⟨13, _⟩ => ⟨S32x784x1024, .f32⟩
  | .hbm, ⟨14, _⟩ => ⟨S32x1x1024, .f32⟩
  | .hbm, ⟨15, _⟩ => ⟨S32x1024x1024, .f32⟩
  | .hbm, ⟨16, _⟩ => ⟨S32x1x1024, .f32⟩
  | .hbm, ⟨17, _⟩ => ⟨S32x1024x10, .f32⟩
  | .hbm, ⟨18, _⟩ => ⟨S32x1x10, .f32⟩
  | .hbm, ⟨19, _⟩ => ⟨S1x1024x784, .f32⟩
  | .hbm, ⟨20, _⟩ => ⟨S32x1024x784, .f32⟩
  | .hbm, ⟨21, _⟩ => ⟨S_, .f32⟩
  | .hbm, ⟨22, _⟩ => ⟨S784x1024, .f32⟩
  | .hbm, ⟨23, _⟩ => ⟨S784x1024, .f32⟩
  | .hbm, ⟨24, _⟩ => ⟨S784x1024, .f32⟩
  | .hbm, ⟨25, _⟩ => ⟨S1x784x1024, .f32⟩
  | .hbm, ⟨26, _⟩ => ⟨S32x784x1024, .f32⟩
  | .hbm, ⟨27, _⟩ => ⟨S32x784x1024, .f32⟩
  | .hbm, ⟨28, _⟩ => ⟨S1x784x1024, .f32⟩
  | .hbm, ⟨29, _⟩ => ⟨S32x784x1024, .f32⟩
  | .hbm, ⟨30, _⟩ => ⟨S32x784x1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1x1x1024, .f32⟩
  | .hbm, ⟨36, _⟩ => ⟨S32x1x1024, .f32⟩
  | .hbm, ⟨37, _⟩ => ⟨S32x1x1024, .f32⟩
  | .hbm, ⟨38, _⟩ => ⟨S1x1x1024, .f32⟩
  | .hbm, ⟨39, _⟩ => ⟨S32x1x1024, .f32⟩
  | .hbm, ⟨40, _⟩ => ⟨S32x1x1024, .f32⟩
  | .hbm, ⟨41, _⟩ => ⟨S32x1024x1024, .f32⟩
  | .hbm, ⟨42, _⟩ => ⟨S32x1024x1024, .f32⟩
  | .hbm, ⟨43, _⟩ => ⟨S32x1024x1024, .f32⟩
  | .hbm, ⟨44, _⟩ => ⟨S_, .f32⟩
  | .hbm, ⟨45, _⟩ => ⟨S32x1024x1024, .f32⟩
  | .hbm, ⟨46, _⟩ => ⟨S32x1024x1024, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S1x1024x1024, .f32⟩
  | .hbm, ⟨52, _⟩ => ⟨S32x1024x1024, .f32⟩
  | .hbm, ⟨53, _⟩ => ⟨S32x1024x1024, .f32⟩
  | .hbm, ⟨54, _⟩ => ⟨S1x1024x1024, .f32⟩
  | .hbm, ⟨55, _⟩ => ⟨S32x1024x1024, .f32⟩
  | .hbm, ⟨56, _⟩ => ⟨S32x1024x1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S1x1x1024, .f32⟩
  | .hbm, ⟨62, _⟩ => ⟨S32x1x1024, .f32⟩
  | .hbm, ⟨63, _⟩ => ⟨S32x1x1024, .f32⟩
  | .hbm, ⟨64, _⟩ => ⟨S1x1x1024, .f32⟩
  | .hbm, ⟨65, _⟩ => ⟨S32x1x1024, .f32⟩
  | .hbm, ⟨66, _⟩ => ⟨S32x1x1024, .f32⟩
  | .hbm, ⟨67, _⟩ => ⟨S32x1024x1024, .f32⟩
  | .hbm, ⟨68, _⟩ => ⟨S32x1024x1024, .f32⟩
  | .hbm, ⟨69, _⟩ => ⟨S32x1024x1024, .f32⟩
  | .hbm, ⟨70, _⟩ => ⟨S_, .f32⟩
  | .hbm, ⟨71, _⟩ => ⟨S32x1024x1024, .f32⟩
  | .hbm, ⟨72, _⟩ => ⟨S32x1024x1024, .f32⟩
  | .hbm, ⟨73, _⟩ => ⟨S_, .f32⟩
  | .hbm, ⟨74, _⟩ => ⟨S1024x10, .f32⟩
  | .hbm, ⟨75, _⟩ => ⟨S1024x10, .f32⟩
  | .hbm, ⟨76, _⟩ => ⟨S1024x10, .f32⟩
  | .hbm, ⟨77, _⟩ => ⟨S1x1024x10, .f32⟩
  | .hbm, ⟨78, _⟩ => ⟨S32x1024x10, .f32⟩
  | .hbm, ⟨79, _⟩ => ⟨S32x1024x10, .f32⟩
  | .hbm, ⟨80, _⟩ => ⟨S1x1024x10, .f32⟩
  | .hbm, ⟨81, _⟩ => ⟨S32x1024x10, .f32⟩
  | .hbm, ⟨82, _⟩ => ⟨S32x1024x10, .f32⟩
  | .hbm, ⟨83, _⟩ => ⟨S_, .f32⟩
  | .hbm, ⟨84, _⟩ => ⟨S10, .f32⟩
  | .hbm, ⟨85, _⟩ => ⟨S10, .f32⟩
  | .hbm, ⟨86, _⟩ => ⟨S10, .f32⟩
  | .hbm, ⟨87, _⟩ => ⟨S1x1x10, .f32⟩
  | .hbm, ⟨88, _⟩ => ⟨S32x1x10, .f32⟩
  | .hbm, ⟨89, _⟩ => ⟨S32x1x10, .f32⟩
  | .hbm, ⟨90, _⟩ => ⟨S1x1x10, .f32⟩
  | .hbm, ⟨91, _⟩ => ⟨S32x1x10, .f32⟩
  | .hbm, ⟨92, _⟩ => ⟨S32x1x10, .f32⟩
  | .hbm, ⟨93, _⟩ => ⟨S32x1024x10, .f32⟩
  | .hbm, ⟨94, _⟩ => ⟨S32x1024x10, .f32⟩
  | .hbm, ⟨95, _⟩ => ⟨S32x1024x10, .f32⟩
  | _, _ => ⟨S1024x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call0_cst : Ref sig .tc := ⟨.hbm, 44, rfl⟩
abbrev main_call0_v0 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_cst : Ref sig .tc := ⟨.hbm, 70, rfl⟩
abbrev main_call1_v0 : Ref sig .tc := ⟨.hbm, 71, rfl⟩
abbrev main_v45 : Ref sig .tc := ⟨.hbm, 72, rfl⟩
abbrev main_cst_3 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_4 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]

class Facts₀ : Prop where
  bcast_S1024x784_S1x1024x784_1_2 : S1024x784.BroadcastsInDim S1x1024x784 (![1, 2] : Fin 2 → Fin S1x1024x784.rank)
  bcast_S1x1024x784_S32x1024x784_0_1_2 : S1x1024x784.BroadcastsInDim S32x1024x784 (![0, 1, 2] : Fin 3 → Fin S32x1024x784.rank)
  bcast_S_S784x1024 : S_.BroadcastsInDim S784x1024 (![] : Fin 0 → Fin S784x1024.rank)
  bcast_S784x1024_S1x784x1024_1_2 : S784x1024.BroadcastsInDim S1x784x1024 (![1, 2] : Fin 2 → Fin S1x784x1024.rank)
  bcast_S1x784x1024_S32x784x1024_0_1_2 : S1x784x1024.BroadcastsInDim S32x784x1024 (![0, 1, 2] : Fin 3 → Fin S32x784x1024.rank)
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S32x1x1024_0_1_2 : S1x1x1024.BroadcastsInDim S32x1x1024 (![0, 1, 2] : Fin 3 → Fin S32x1x1024.rank)
  bcast_S32x1x1024_S32x1024x1024_0_1_2 : S32x1x1024.BroadcastsInDim S32x1024x1024 (![0, 1, 2] : Fin 3 → Fin S32x1024x1024.rank)
  bcast_S_S32x1024x1024 : S_.BroadcastsInDim S32x1024x1024 (![] : Fin 0 → Fin S32x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  bcast_S_S1024x10 : S_.BroadcastsInDim S1024x10 (![] : Fin 0 → Fin S1024x10.rank)
  bcast_S1024x10_S1x1024x10_1_2 : S1024x10.BroadcastsInDim S1x1024x10 (![1, 2] : Fin 2 → Fin S1x1024x10.rank)
  bcast_S1x1024x10_S32x1024x10_0_1_2 : S1x1024x10.BroadcastsInDim S32x1024x10 (![0, 1, 2] : Fin 3 → Fin S32x1024x10.rank)
  bcast_S_S10 : S_.BroadcastsInDim S10 (![] : Fin 0 → Fin S10.rank)
  bcast_S10_S1x1x10_2 : S10.BroadcastsInDim S1x1x10 (![2] : Fin 1 → Fin S1x1x10.rank)
  bcast_S1x1x10_S32x1x10_0_1_2 : S1x1x10.BroadcastsInDim S32x1x10 (![0, 1, 2] : Fin 3 → Fin S32x1x10.rank)
  bcast_S32x1x10_S32x1024x10_0_1_2 : S32x1x10.BroadcastsInDim S32x1024x10 (![0, 1, 2] : Fin 3 → Fin S32x1024x10.rank)
  dot_S32x1024x784_S32x784x1024_S32x1024x1024_2_1_1_2_0_0_wf : DotDims.WF S32x1024x784 S32x784x1024 S32x1024x1024 [2] [1] [1] [2] [0] [0]
  dot_S32x1024x1024_S32x1024x1024_S32x1024x1024_2_1_1_2_0_0_wf : DotDims.WF S32x1024x1024 S32x1024x1024 S32x1024x1024 [2] [1] [1] [2] [0] [0]
  dot_S32x1024x1024_S32x1024x10_S32x1024x10_2_1_1_2_0_0_wf : DotDims.WF S32x1024x1024 S32x1024x10 S32x1024x10 [2] [1] [1] [2] [0] [0]

variable [Facts₀]

def dot_S32x1024x784_S32x784x1024_S32x1024x1024_2_1_1_2_0_0 : DotDims S32x1024x784 S32x784x1024 S32x1024x1024 where
  lhsContracting := [2]
  rhsContracting := [1]
  lhsNonContracting := [1]
  rhsNonContracting := [2]
  lhsBatch := [0]
  rhsBatch := [0]
  wf := dot_S32x1024x784_S32x784x1024_S32x1024x1024_2_1_1_2_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf
def dot_S32x1024x1024_S32x1024x10_S32x1024x10_2_1_1_2_0_0 : DotDims S32x1024x1024 S32x1024x10 S32x1024x10 where
  lhsContracting := [2]
  rhsContracting := [1]
  lhsNonContracting := [1]
  rhsNonContracting := [2]
  lhsBatch := [0]
  rhsBatch := [0]
  wf := dot_S32x1024x1024_S32x1024x10_S32x1024x10_2_1_1_2_0_0_wf

class Facts : Prop extends Facts₀ where

variable [Facts]
-- ==== Proof.Spec.lean ====
/-
  The function both programs compute, stated once, entry by entry, over the nineteen argument arrays.

  A Bayesian three-layer perceptron evaluated for 32 independent weight samples. For sample s every weight and bias is
  drawn by the reparameterization  noise * exp(logvar / 2) + mean  (the noise arrays carry the sample axis, the mean and
  log-variance arrays do not). With x the 1024 × 784 batch:

    act0 s b i = max (∑ k < 784,  x b k        * W0 s k i + c0 s i) 0
    act1 s b j = max (∑ i < 1024, act0 s b i   * W1 s i j + c1 s j) 0
    out  s b o =      ∑ j < 1024, act1 s b j   * Wl s j o + cl s o

  All values are extended reals; sums are finite sums in the additive monoid of the extended reals; one half and zero are
  kept as the words the programs print for them.
-/
import Idealize.ShloMosaic.PureOps.Ideal
import Idealize.ShloMosaic.Lib.ValueIdx

noncomputable section

namespace BnnSpec

open Idealize.ShloMosaic Idealize.ShloMosaic.ValueIdx

/-- One half, as the single-precision word both programs print. -/
abbrev half : EReal := Ideal.ofBits .f32 0x3F000000#32
/-- Zero, as the single-precision word both programs print. -/
abbrev zero : EReal := Ideal.ofBits .f32 0x00000000#32

/-- A reparameterized draw: noise times the standard deviation exp(logvar / 2), plus the mean. -/
def sample (eps lv mu : EReal) : EReal := eps * Ideal.exp (half * lv) + mu

variable (x : FVec Ideal ⟨2, ![1024, 784]⟩ .f32)
  (wm0 wv0 : FVec Ideal ⟨2, ![784, 1024]⟩ .f32) (bm0 bv0 : FVec Ideal ⟨1, ![1024]⟩ .f32)
  (wm1 wv1 : FVec Ideal ⟨2, ![1024, 1024]⟩ .f32) (bm1 bv1 : FVec Ideal ⟨1, ![1024]⟩ .f32)
  (wlm wlv : FVec Ideal ⟨2, ![1024, 10]⟩ .f32) (blm blv : FVec Ideal ⟨1, ![10]⟩ .f32)
  (we0 : FVec Ideal ⟨3, ![32, 784, 1024]⟩ .f32) (be0 : FVec Ideal ⟨3, ![32, 1, 1024]⟩ .f32)
  (we1 : FVec Ideal ⟨3, ![32, 1024, 1024]⟩ .f32) (be1 : FVec Ideal ⟨3, ![32, 1, 1024]⟩ .f32)
  (wel : FVec Ideal ⟨3, ![32, 1024, 10]⟩ .f32) (bel : FVec Ideal ⟨3, ![32, 1, 10]⟩ .f32)

/-- First hidden layer of sample s at batch row b, unit i. -/
def act0 (s : Fin 32) (b : Fin 1024) (i : Fin 1024) : EReal :=
  max ((∑ k : Fin 784, x (ix2 b k) * sample (we0 (ix3 s k i)) (wv0 (ix2 k i)) (wm0 (ix2 k i)))
        + sample (be0 (ix3 s (0 : Fin 1) i)) (bv0 (ix1 i)) (bm0 (ix1 i))) zero

/-- Second hidden layer of sample s at batch row b, unit j. -/
def act1 (s : Fin 32) (b : Fin 1024) (j : Fin 1024) : EReal :=
  max ((∑ i : Fin 1024, act0 x wm0 wv0 bm0 bv0 we0 be0 s b i * sample (we1 (ix3 s i j)) (wv1 (ix2 i j)) (wm1 (ix2 i j)))
        + sample (be1 (ix3 s (0 : Fin 1) j)) (bv1 (ix1 j)) (bm1 (ix1 j))) zero

/-- Output layer of sample s at batch row b, class o. -/
def logit (s : Fin 32) (b : Fin 1024) (o : Fin 10) : EReal :=
  (∑ j : Fin 1024, act1 x wm0 wv0 bm0 bv0 wm1 wv1 bm1 bv1 we0 be0 we1 be1 s b j
      * sample (wel (ix3 s j o)) (wlv (ix2 j o)) (wlm (ix2 j o)))
    + sample (bel (ix3 s (0 : Fin 1) o)) (blv (ix1 o)) (blm (ix1 o))

/-- The whole result array: entry (s, b, o) is the output layer of sample s at batch row b, class o. -/
def G : FVec Ideal ⟨3, ![32, 1024, 10]⟩ .f32 := fun i =>
  logit x wm0 wv0 bm0 bv0 wm1 wv1 bm1 bv1 wlm wlv blm blv we0 be0 we1 be1 wel bel (i 0) (i 1) (i 2)

end BnnSpec

end
-- ==== Proof.LibWholeBuffer.lean ====
/-
  Loads and stores through the rectangle that is a buffer's whole shape (all offsets zero).
  A vector load of the whole shape through a whole memref reads the memref's contents; after a sequence of
  stores whose LAST one fills the whole shape, the buffer reads that store's payload, whatever was stored or held
  before; and a whole-shape load issued after such stores reads that payload too. These are the three facts a
  kernel body that keeps an accumulator in a scratch buffer (load all, compute, store all) is read with.
-/
import Idealize.ShloMosaic.Lib.Pipeline.Frame
import Idealize.ShloMosaic.Lib.Pipeline.FrameBody
import Idealize.ShloMosaic.Lib.Pipeline.Value

namespace Idealize.ShloMosaic.WholeBuffer

variable {sig : RefSig} {Val : EltTy → Type} {κ : Kind} {sp : Space} {S : Shape} {e : EltTy}

/-- A load of the whole shape through a whole memref held at the raw contents that read `X` reads `X`. -/
theorem readAt_whole {m : Memref sig κ sp S e} (h : m.IsWhole) {off : Fin S.rank → ℕ} (hz : off = fun _ => 0)
    (inb : ∀ a, off a + S.size a ≤ S.size a) (X : S.Idx → Val e) :
    View.readAt Val m.view (Rect.unit off S.size inb).toLoadRect (h.unread X) = X := by
  rw [View.readAt_eq_ld, h.read_unread, View.ld_unit_zero hz]

/-- After stores the last of which fills the whole shape with `w`, the view reads `w`. -/
theorem read_writes_whole [∀ e, Nonempty (Val e)] (v : View sig κ sp S e) (f : v.ty.Contents Val) {off : Fin S.rank → ℕ}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero hz inb y⟩),
    View.canon_cons_unit_zero hz]

/-- A whole-shape load issued after stores the last of which filled the whole shape with `w` reads `w`. -/
theorem readCov_whole [∀ e, Nonempty (Val e)] (v : View sig κ sp S e) {off : Fin S.rank → ℕ}
    (hz : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.Mem.head _, View.mem_set_unit_zero hz inb y⟩),
    View.canon_cons_unit_zero hz, View.ld_unit_zero hz]

/-- The zero offsets of a rank-2 rectangle, as the printed programs spell them. -/
theorem zero_off2 : (![0, 0] : Fin 2 → ℕ) = fun _ => 0 := by funext a; fin_cases a <;> rfl

end Idealize.ShloMosaic.WholeBuffer
-- ==== Proof.BodyValue.lean ====
/-
  What one grid step leaves in the output block, as a value.

  The body stores three times: the first hidden layer into the scratch buffer, the second hidden layer into the same
  buffer (after reading the first back), and the output layer into the output block (after reading the second back).
  Every store fills its whole buffer and every load reads a whole buffer, so each read-back is exactly the value stored
  last, and the output block ends as the composition of the three layers' arithmetic applied to the step's input blocks.
-/
import proofs.«168684_j36532991820264_2_alg».proof.Proof.Gen.KernelIdeal.Frame
import proofs.«168684_j36532991820264_2_alg».proof.Proof.LibWholeBuffer
import Idealize.ShloMosaic.Lib.Pipeline.Value
import Idealize.ShloMosaic.Lib.Tactic

set_option maxRecDepth 16384

noncomputable section

namespace Cert.KernelIdeal.Bnn

open Cert.KernelIdeal Cert.KernelIdeal.Gen Idealize.ShloMosaic Idealize.ShloMosaic.TcCoe Idealize.ShloMosaic.Tactic Idealize.SL.Sem
open Idealize.ShloMosaic.Pipeline (Dat)

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The output block after one grid step is the output layer's arithmetic applied to the second hidden layer's, applied
    to the first hidden layer's, of the step's nineteen input blocks: the two read-backs of the scratch buffer return the
    hidden layers just stored. -/
theorem out_eq (c : Dev nD) (i : grid0.Coords) (arg1 : Memref sig .tc .vmem S1024x784 .f32) (harg1 : arg1.IsWhole) (arg2 : Memref sig .tc .vmem S784x1024 .f32) (harg2 : arg2.IsWhole) (arg3 : Memref sig .tc .vmem S784x1024 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1024x10 .f32) (harg10 : arg10.IsWhole) (arg11 : Memref sig .tc .vmem S1024x10 .f32) (harg11 : arg11.IsWhole) (arg12 : Memref sig .tc .vmem S10 .f32) (harg12 : arg12.IsWhole) (arg13 : Memref sig .tc .vmem S10 .f32) (harg13 : arg13.IsWhole) (arg14 : Memref sig .tc .vmem S1x784x1024 .f32) (harg14 : arg14.IsWhole) (arg15 : Memref sig .tc .vmem S1x1x1024 .f32) (harg15 : arg15.IsWhole) (arg16 : Memref sig .tc .vmem S1x1024x1024 .f32) (harg16 : arg16.IsWhole) (arg17 : Memref sig .tc .vmem S1x1x1024 .f32) (harg17 : arg17.IsWhole) (arg18 : Memref sig .tc .vmem S1x1024x10 .f32) (harg18 : arg18.IsWhole) (arg19 : Memref sig .tc .vmem S1x1x10 .f32) (harg19 : arg19.IsWhole) (arg20 : Memref sig .tc .vmem S1x1024x10 .f32) (harg20 : arg20.IsWhole) (arg21 : Memref sig .tc .vmem S1024x1024 .bf16) (harg21 : arg21.IsWhole)
    (x0 : Vec F S1024x784 .f32) (x1 : Vec F S784x1024 .f32) (x2 : Vec F S784x1024 .f32) (x3 : Vec F S1024 .f32) (x4 : Vec F S1024 .f32) (x5 : Vec F S1024x1024 .f32) (x6 : Vec F S1024x1024 .f32) (x7 : Vec F S1024 .f32) (x8 : Vec F S1024 .f32) (x9 : Vec F S1024x10 .f32) (x10 : Vec F S1024x10 .f32) (x11 : Vec F S10 .f32) (x12 : Vec F S10 .f32) (x13 : Vec F S1x784x1024 .f32) (x14 : Vec F S1x1x1024 .f32) (x15 : Vec F S1x1024x1024 .f32) (x16 : Vec F S1x1x1024 .f32) (x17 : Vec F S1x1024x10 .f32) (x18 : Vec F S1x1x10 .f32) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18
      = k0_pay1 (k0_pay5 x17 x10 x9) (k0_pay6 x18 x12) x11
          (k0_pay4 (k0_pay3 x15 x6) x5 x16 x8 x7 (k0_pay2 x13 x2 x1 x14 x4 x3 x0)) := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18)]
  unfold kernelRun0_A
  dsimp only
  sl_unfold_words
  rw [View.canon_unit_zero hz3]
  simp only [WholeBuffer.readCov_whole (S := S1024x1024) _ hz2,
    WholeBuffer.readAt_whole (S := S1024) _ hz1,
    WholeBuffer.readAt_whole (S := S10) _ hz1,
    WholeBuffer.readAt_whole (S := S1024x784) _ hz2,
    WholeBuffer.readAt_whole (S := S784x1024) _ hz2,
    WholeBuffer.readAt_whole (S := S1024x1024) _ hz2,
    WholeBuffer.readAt_whole (S := S1024x10) _ hz2,
    WholeBuffer.readAt_whole (S := S1x784x1024) _ hz3,
    WholeBuffer.readAt_whole (S := S1x1x1024) _ hz3,
    WholeBuffer.readAt_whole (S := S1x1024x1024) _ hz3,
    WholeBuffer.readAt_whole (S := S1x1024x10) _ hz3,
    WholeBuffer.readAt_whole (S := S1x1x10) _ hz3]

end Cert.KernelIdeal.Bnn

end
-- ==== Proof.KernelBlocks.lean ====
/-
  What each window's block is, at every grid point, as entries of the arrays the kernel launch finds.

  The thirteen sample-independent operands (the batch, the means, the standard deviations) are staged whole: their one
  block, at block index (0, …, 0), is the array itself. The six noise operands and the output are cut along the sample
  axis: at grid point t the block is the slab of sample t, so entry (0, p, q) of the block is entry (t, p, q) of the
  array. Six of the staged arrays are not arguments but computed before the launch: the standard deviations
  exp(logvar / 2), entry by entry.
-/
import proofs.«168684_j36532991820264_2_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.KernelIdeal.Bnn

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat)

variable {F : FTy → Type} [FloatOps F]
variable (m : (ℓ : Loc nD τ sig) → Buf (Elt F) ℓ)

/-! ## The block index of each window at each of the 32 grid points (decided over the grid) -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 1) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 1) = 0 :=
  (by decide +kernel : ∀ t : Fin grid0.N, _)
theorem idx11 : ∀ t : Fin cfg0.N, win0_11.index t (0 : Fin 1) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 3) = t.val ∧ win0_13.index t (1 : Fin 3) = 0 ∧ win0_13.index t (2 : Fin 3) = 0 :=
  (by decide +kernel : ∀ t : Fin grid0.N, _)
theorem idx14 : ∀ t : Fin cfg0.N, win0_14.index t (0 : Fin 3) = t.val ∧ win0_14.index t (1 : Fin 3) = 0 ∧ win0_14.index t (2 : Fin 3) = 0 :=
  (by decide +kernel : ∀ t : Fin grid0.N, _)
theorem idx15 : ∀ t : Fin cfg0.N, win0_15.index t (0 : Fin 3) = t.val ∧ win0_15.index t (1 : Fin 3) = 0 ∧ win0_15.index t (2 : Fin 3) = 0 :=
  (by decide +kernel : ∀ t : Fin grid0.N, _)
theorem idx16 : ∀ t : Fin cfg0.N, win0_16.index t (0 : Fin 3) = t.val ∧ win0_16.index t (1 : Fin 3) = 0 ∧ win0_16.index t (2 : Fin 3) = 0 :=
  (by decide +kernel : ∀ t : Fin grid0.N, _)
theorem idx17 : ∀ t : Fin cfg0.N, win0_17.index t (0 : Fin 3) = t.val ∧ win0_17.index t (1 : Fin 3) = 0 ∧ win0_17.index t (2 : Fin 3) = 0 :=
  (by decide +kernel : ∀ t : Fin grid0.N, _)
theorem idx18 : ∀ t : Fin cfg0.N, win0_18.index t (0 : Fin 3) = t.val ∧ win0_18.index t (1 : Fin 3) = 0 ∧ win0_18.index t (2 : Fin 3) = 0 :=
  (by decide +kernel : ∀ t : Fin grid0.N, _)
theorem idx19 : ∀ t : Fin cfg0.N, win0_19.index t (0 : Fin 3) = t.val ∧ win0_19.index t (1 : Fin 3) = 0 ∧ win0_19.index t (2 : Fin 3) = 0 :=
  (by decide +kernel : ∀ t : Fin grid0.N, _)

/-! ## The operands staged whole: the block is the array -/

theorem blk0 (c : Dev nD) (t : Fin cfg0.N) : (iblk m c 0 t : Vec F S1024x784 .f32) = V m c main_arg0 := by
  funext y
  show V m c main_arg0 (((cfg0.win 0).blk t).view.emb y) = V m c main_arg0 y
  refine congrArg _ (funext fun a => Fin.ext ?_)
  match a with
  | ⟨0, _⟩ => show win0_0.index t (0 : Fin 2) * 1024 + 1 * (y 0).val = (y 0).val; rw [(idx0 t).1]; omega
  | ⟨1, _⟩ => show win0_0.index t (1 : Fin 2) * 784 + 1 * (y 1).val = (y 1).val; rw [(idx0 t).2]; omega

theorem blk1 (c : Dev nD) (t : Fin cfg0.N) : (iblk m c 1 t : Vec F S784x1024 .f32) = V m c main_arg1 := by
  funext y
  show V m c main_arg1 (((cfg0.win 1).blk t).view.emb y) = V m c main_arg1 y
  refine congrArg _ (funext fun a => Fin.ext ?_)
  match a with
  | ⟨0, _⟩ => show win0_1.index t (0 : Fin 2) * 784 + 1 * (y 0).val = (y 0).val; rw [(idx1 t).1]; omega
  | ⟨1, _⟩ => show win0_1.index t (1 : Fin 2) * 1024 + 1 * (y 1).val = (y 1).val; rw [(idx1 t).2]; omega

theorem blk2 (c : Dev nD) (t : Fin cfg0.N) : (iblk m c 2 t : Vec F S784x1024 .f32) = V m c main_v2 := by
  funext y
  show V m c main_v2 (((cfg0.win 2).blk t).view.emb y) = V m c main_v2 y
  refine congrArg _ (funext fun a => Fin.ext ?_)
  match a with
  | ⟨0, _⟩ => show win0_2.index t (0 : Fin 2) * 784 + 1 * (y 0).val = (y 0).val; rw [(idx2 t).1]; omega
  | ⟨1, _⟩ => show win0_2.index t (1 : Fin 2) * 1024 + 1 * (y 1).val = (y 1).val; rw [(idx2 t).2]; omega

theorem blk5 (c : Dev nD) (t : Fin cfg0.N) : (iblk m c 5 t : Vec F S1024x1024 .f32) = V m c main_arg5 := by
  funext y
  show V m c main_arg5 (((cfg0.win 5).blk t).view.emb y) = V m c main_arg5 y
  refine congrArg _ (funext fun a => Fin.ext ?_)
  match a with
  | ⟨0, _⟩ => show win0_5.index t (0 : Fin 2) * 1024 + 1 * (y 0).val = (y 0).val; rw [(idx5 t).1]; omega
  | ⟨1, _⟩ => show win0_5.index t (1 : Fin 2) * 1024 + 1 * (y 1).val = (y 1).val; rw [(idx5 t).2]; omega

theorem blk6 (c : Dev nD) (t : Fin cfg0.N) : (iblk m c 6 t : Vec F S1024x1024 .f32) = V m c main_v8 := by
  funext y
  show V m c main_v8 (((cfg0.win 6).blk t).view.emb y) = V m c main_v8 y
  refine congrArg _ (funext fun a => Fin.ext ?_)
  match a with
  | ⟨0, _⟩ => show win0_6.index t (0 : Fin 2) * 1024 + 1 * (y 0).val = (y 0).val; rw [(idx6 t).1]; omega
  | ⟨1, _⟩ => show win0_6.index t (1 : Fin 2) * 1024 + 1 * (y 1).val = (y 1).val; rw [(idx6 t).2]; omega

theorem blk9 (c : Dev nD) (t : Fin cfg0.N) : (iblk m c 9 t : Vec F S1024x10 .f32) = V m c main_arg9 := by
  funext y
  show V m c main_arg9 (((cfg0.win 9).blk t).view.emb y) = V m c main_arg9 y
  refine congrArg _ (funext fun a => Fin.ext ?_)
  match a with
  | ⟨0, _⟩ => show win0_9.index t (0 : Fin 2) * 1024 + 1 * (y 0).val = (y 0).val; rw [(idx9 t).1]; omega
  | ⟨1, _⟩ => show win0_9.index t (1 : Fin 2) * 10 + 1 * (y 1).val = (y 1).val; rw [(idx9 t).2]; omega

theorem blk10 (c : Dev nD) (t : Fin cfg0.N) : (iblk m c 10 t : Vec F S1024x10 .f32) = V m c main_v14 := by
  funext y
  show V m c main_v14 (((cfg0.win 10).blk t).view.emb y) = V m c main_v14 y
  refine congrArg _ (funext fun a => Fin.ext ?_)
  match a with
  | ⟨0, _⟩ => show win0_10.index t (0 : Fin 2) * 1024 + 1 * (y 0).val = (y 0).val; rw [(idx10 t).1]; omega
  | ⟨1, _⟩ => show win0_10.index t (1 : Fin 2) * 10 + 1 * (y 1).val = (y 1).val; rw [(idx10 t).2]; omega

theorem blk3 (c : Dev nD) (t : Fin cfg0.N) : (iblk m c 3 t : Vec F S1024 .f32) = V m c main_arg3 := by
  funext y
  show V m c main_arg3 (((cfg0.win 3).blk t).view.emb y) = V m c main_arg3 y
  refine congrArg _ (funext fun a => Fin.ext ?_)
  match a with
  | ⟨0, _⟩ => show win0_3.index t (0 : Fin 1) * 1024 + 1 * (y 0).val = (y 0).val; rw [idx3 t]; omega

theorem blk4 (c : Dev nD) (t : Fin cfg0.N) : (iblk m c 4 t : Vec F S1024 .f32) = V m c main_v5 := by
  funext y
  show V m c main_v5 (((cfg0.win 4).blk t).view.emb y) = V m c main_v5 y
  refine congrArg _ (funext fun a => Fin.ext ?_)
  match a with
  | ⟨0, _⟩ => show win0_4.index t (0 : Fin 1) * 1024 + 1 * (y 0).val = (y 0).val; rw [idx4 t]; omega

theorem blk7 (c : Dev nD) (t : Fin cfg0.N) : (iblk m c 7 t : Vec F S1024 .f32) = V m c main_arg7 := by
  funext y
  show V m c main_arg7 (((cfg0.win 7).blk t).view.emb y) = V m c main_arg7 y
  refine congrArg _ (funext fun a => Fin.ext ?_)
  match a with
  | ⟨0, _⟩ => show win0_7.index t (0 : Fin 1) * 1024 + 1 * (y 0).val = (y 0).val; rw [idx7 t]; omega

theorem blk8 (c : Dev nD) (t : Fin cfg0.N) : (iblk m c 8 t : Vec F S1024 .f32) = V m c main_v11 := by
  funext y
  show V m c main_v11 (((cfg0.win 8).blk t).view.emb y) = V m c main_v11 y
  refine congrArg _ (funext fun a => Fin.ext ?_)
  match a with
  | ⟨0, _⟩ => show win0_8.index t (0 : Fin 1) * 1024 + 1 * (y 0).val = (y 0).val; rw [idx8 t]; omega

theorem blk11 (c : Dev nD) (t : Fin cfg0.N) : (iblk m c 11 t : Vec F S10 .f32) = V m c main_arg11 := by
  funext y
  show V m c main_arg11 (((cfg0.win 11).blk t).view.emb y) = V m c main_arg11 y
  refine congrArg _ (funext fun a => Fin.ext ?_)
  match a with
  | ⟨0, _⟩ => show win0_11.index t (0 : Fin 1) * 10 + 1 * (y 0).val = (y 0).val; rw [idx11 t]; omega

theorem blk12 (c : Dev nD) (t : Fin cfg0.N) : (iblk m c 12 t : Vec F S10 .f32) = V m c main_v17 := by
  funext y
  show V m c main_v17 (((cfg0.win 12).blk t).view.emb y) = V m c main_v17 y
  refine congrArg _ (funext fun a => Fin.ext ?_)
  match a with
  | ⟨0, _⟩ => show win0_12.index t (0 : Fin 1) * 10 + 1 * (y 0).val = (y 0).val; rw [idx12 t]; omega

/-! ## The operands cut along the sample axis: entry (0, p, q) of point t's block is entry (t, p, q) of the array -/

theorem blk13 (c : Dev nD) (t : Fin cfg0.N) (s : Fin 32) (hs : s.val = t.val) (p : Fin 784) (q : Fin 1024) :
    (iblk m c 13 t : Vec F S1x784x1024 .f32) (ix3 (0 : Fin 1) p q) = V m c main_arg13 (ix3 s p q) := by
  show V m c main_arg13 (((cfg0.win 13).blk t).view.emb (ix3 (0 : Fin 1) p q)) = V m c main_arg13 (ix3 s p q)
  refine congrArg _ (funext fun a => Fin.ext ?_)
  match a with
  | ⟨0, _⟩ => show win0_13.index t (0 : Fin 3) * 1 + 1 * 0 = s.val; rw [(idx13 t).1, hs]; omega
  | ⟨1, _⟩ => show win0_13.index t (1 : Fin 3) * 784 + 1 * p.val = p.val; rw [(idx13 t).2.1]; omega
  | ⟨2, _⟩ => show win0_13.index t (2 : Fin 3) * 1024 + 1 * q.val = q.val; rw [(idx13 t).2.2]; omega

theorem blk14 (c : Dev nD) (t : Fin cfg0.N) (s : Fin 32) (hs : s.val = t.val) (p : Fin 1) (q : Fin 1024) :
    (iblk m c 14 t : Vec F S1x1x1024 .f32) (ix3 (0 : Fin 1) p q) = V m c main_arg14 (ix3 s p q) := by
  show V m c main_arg14 (((cfg0.win 14).blk t).view.emb (ix3 (0 : Fin 1) p q)) = V m c main_arg14 (ix3 s p q)
  refine congrArg _ (funext fun a => Fin.ext ?_)
  match a with
  | ⟨0, _⟩ => show win0_14.index t (0 : Fin 3) * 1 + 1 * 0 = s.val; rw [(idx14 t).1, hs]; omega
  | ⟨1, _⟩ => show win0_14.index t (1 : Fin 3) * 1 + 1 * p.val = p.val; rw [(idx14 t).2.1]; omega
  | ⟨2, _⟩ => show win0_14.index t (2 : Fin 3) * 1024 + 1 * q.val = q.val; rw [(idx14 t).2.2]; omega

theorem blk15 (c : Dev nD) (t : Fin cfg0.N) (s : Fin 32) (hs : s.val = t.val) (p : Fin 1024) (q : Fin 1024) :
    (iblk m c 15 t : Vec F S1x1024x1024 .f32) (ix3 (0 : Fin 1) p q) = V m c main_arg15 (ix3 s p q) := by
  show V m c main_arg15 (((cfg0.win 15).blk t).view.emb (ix3 (0 : Fin 1) p q)) = V m c main_arg15 (ix3 s p q)
  refine congrArg _ (funext fun a => Fin.ext ?_)
  match a with
  | ⟨0, _⟩ => show win0_15.index t (0 : Fin 3) * 1 + 1 * 0 = s.val; rw [(idx15 t).1, hs]; omega
  | ⟨1, _⟩ => show win0_15.index t (1 : Fin 3) * 1024 + 1 * p.val = p.val; rw [(idx15 t).2.1]; omega
  | ⟨2, _⟩ => show win0_15.index t (2 : Fin 3) * 1024 + 1 * q.val = q.val; rw [(idx15 t).2.2]; omega

theorem blk16 (c : Dev nD) (t : Fin cfg0.N) (s : Fin 32) (hs : s.val = t.val) (p : Fin 1) (q : Fin 1024) :
    (iblk m c 16 t : Vec F S1x1x1024 .f32) (ix3 (0 : Fin 1) p q) = V m c main_arg16 (ix3 s p q) := by
  show V m c main_arg16 (((cfg0.win 16).blk t).view.emb (ix3 (0 : Fin 1) p q)) = V m c main_arg16 (ix3 s p q)
  refine congrArg _ (funext fun a => Fin.ext ?_)
  match a with
  | ⟨0, _⟩ => show win0_16.index t (0 : Fin 3) * 1 + 1 * 0 = s.val; rw [(idx16 t).1, hs]; omega
  | ⟨1, _⟩ => show win0_16.index t (1 : Fin 3) * 1 + 1 * p.val = p.val; rw [(idx16 t).2.1]; omega
  | ⟨2, _⟩ => show win0_16.index t (2 : Fin 3) * 1024 + 1 * q.val = q.val; rw [(idx16 t).2.2]; omega

theorem blk17 (c : Dev nD) (t : Fin cfg0.N) (s : Fin 32) (hs : s.val = t.val) (p : Fin 1024) (q : Fin 10) :
    (iblk m c 17 t : Vec F S1x1024x10 .f32) (ix3 (0 : Fin 1) p q) = V m c main_arg17 (ix3 s p q) := by
  show V m c main_arg17 (((cfg0.win 17).blk t).view.emb (ix3 (0 : Fin 1) p q)) = V m c main_arg17 (ix3 s p q)
  refine congrArg _ (funext fun a => Fin.ext ?_)
  match a with
  | ⟨0, _⟩ => show win0_17.index t (0 : Fin 3) * 1 + 1 * 0 = s.val; rw [(idx17 t).1, hs]; omega
  | ⟨1, _⟩ => show win0_17.index t (1 : Fin 3) * 1024 + 1 * p.val = p.val; rw [(idx17 t).2.1]; omega
  | ⟨2, _⟩ => show win0_17.index t (2 : Fin 3) * 10 + 1 * q.val = q.val; rw [(idx17 t).2.2]; omega

theorem blk18 (c : Dev nD) (t : Fin cfg0.N) (s : Fin 32) (hs : s.val = t.val) (p : Fin 1) (q : Fin 10) :
    (iblk m c 18 t : Vec F S1x1x10 .f32) (ix3 (0 : Fin 1) p q) = V m c main_arg18 (ix3 s p q) := by
  show V m c main_arg18 (((cfg0.win 18).blk t).view.emb (ix3 (0 : Fin 1) p q)) = V m c main_arg18 (ix3 s p q)
  refine congrArg _ (funext fun a => Fin.ext ?_)
  match a with
  | ⟨0, _⟩ => show win0_18.index t (0 : Fin 3) * 1 + 1 * 0 = s.val; rw [(idx18 t).1, hs]; omega
  | ⟨1, _⟩ => show win0_18.index t (1 : Fin 3) * 1 + 1 * p.val = p.val; rw [(idx18 t).2.1]; omega
  | ⟨2, _⟩ => show win0_18.index t (2 : Fin 3) * 10 + 1 * q.val = q.val; rw [(idx18 t).2.2]; omega

/-! ## The standard deviations, computed before the launch: exp of half the log-variance, entry by entry -/

theorem V_v2 (c : Dev nD) : (V m c main_v2 : FVec F S784x1024 .f32)
    = Host.exp (mulf (broadcastInDim S784x1024 ![] bcast_S_S784x1024 (constant (F := F) S_ .f32 0x3F000000#32)) (m ((c : Thread nD τ).loc main_arg2))) := by
  dsimp only [V, hostOps0]
  after_results

theorem V_v5 (c : Dev nD) : (V m c main_v5 : FVec F S1024 .f32)
    = Host.exp (mulf (broadcastInDim S1024 ![] bcast_S_S1024 (constant (F := F) S_ .f32 0x3F000000#32)) (m ((c : Thread nD τ).loc main_arg4))) := by
  dsimp only [V, hostOps0]
  after_results

theorem V_v8 (c : Dev nD) : (V m c main_v8 : FVec F S1024x1024 .f32)
    = Host.exp (mulf (broadcastInDim S1024x1024 ![] bcast_S_S1024x1024 (constant (F := F) S_ .f32 0x3F000000#32)) (m ((c : Thread nD τ).loc main_arg6))) := by
  dsimp only [V, hostOps0]
  after_results

theorem V_v11 (c : Dev nD) : (V m c main_v11 : FVec F S1024 .f32)
    = Host.exp (mulf (broadcastInDim S1024 ![] bcast_S_S1024 (constant (F := F) S_ .f32 0x3F000000#32)) (m ((c : Thread nD τ).loc main_arg8))) := by
  dsimp only [V, hostOps0]
  after_results

theorem V_v14 (c : Dev nD) : (V m c main_v14 : FVec F S1024x10 .f32)
    = Host.exp (mulf (broadcastInDim S1024x10 ![] bcast_S_S1024x10 (constant (F := F) S_ .f32 0x3F000000#32)) (m ((c : Thread nD τ).loc main_arg10))) := by
  dsimp only [V, hostOps0]
  after_results

theorem V_v17 (c : Dev nD) : (V m c main_v17 : FVec F S10 .f32)
    = Host.exp (mulf (broadcastInDim S10 ![] bcast_S_S10 (constant (F := F) S_ .f32 0x3F000000#32)) (m ((c : Thread nD τ).loc main_arg12))) := by
  dsimp only [V, hostOps0]
  after_results

end Cert.KernelIdeal.Bnn

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«168684_j36532991820264_2_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.PayloadAt.lean ====
/-
  The body's arithmetic read at an entry, over the extended reals.

  Each of the body's three layers is a matrix product of the previous activations with a freshly sampled weight matrix
  (noise block times standard deviation plus mean), plus a sampled bias row broadcast down the batch; the two hidden
  layers are clipped below at zero. Changes of float format are the identity on extended reals, a matrix product into
  the zero accumulator is the sum over the contracted axis, a block with a leading unit axis is read at the unit
  coordinate zero, and a bias vector laid out as a one-row matrix is read at its column.
-/
import proofs.«168684_j36532991820264_2_alg».proof.Proof.Gen.KernelIdeal.Skeleton
import proofs.«168684_j36532991820264_2_alg».proof.Proof.Spec
import proofs.«168684_j36532991820264_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bnn

open Cert.KernelIdeal Cert.KernelIdeal.Gen Idealize.ShloMosaic Idealize.ShloMosaic.ValueIdx

theorem dot0_eq : dot_S1024x784_S784x1024_S1024x1024_1_0_0_1_n_n = DotDims.plain 1024 784 1024 := rfl
theorem dot1_eq : dot_S1024x1024_S1024x1024_S1024x1024_1_0_0_1_n_n = DotDims.plain 1024 1024 1024 := rfl
theorem dot2_eq : dot_S1024x1024_S1024x10_S1024x10_1_0_0_1_n_n = DotDims.plain 1024 1024 10 := rfl

/-- First hidden layer at (b, i): the clipped sum over the 784 inputs of x(b,k) times the sampled weight
    noise(0,k,i) * sd(k,i) + mean(k,i), plus the sampled bias noise(0,0,i) * sd(i) + mean(i). -/
theorem pay2_at (v0 : FVec Ideal S1x784x1024 .f32) (v2 v5 : FVec Ideal S784x1024 .f32) (v7 : FVec Ideal S1x1x1024 .f32)
    (v9 v13 : FVec Ideal S1024 .f32) (v16 : FVec Ideal S1024x784 .f32) (b i : Fin 1024) :
    k0_pay2 (F := Ideal) v0 v2 v5 v7 v9 v13 v16 (ix2 b i)
      = max ((∑ k : Fin 784, v16 (ix2 b k) * (v0 (ix3 (0 : Fin 1) k i) * v2 (ix2 k i) + v5 (ix2 k i)))
              + (v7 (ix3 (0 : Fin 1) (0 : Fin 1) i) * v9 (ix1 i) + v13 (ix1 i))) BnnSpec.zero := by
  unfold k0_pay2
  simp only [shapeCast_self, maximumf_apply, addf_apply, truncf_apply, broadcast_apply, matmul]
  rw [dot0_eq, PlainMatmul.plain_matmul_zero_apply, broadcastTo_1b_ab_apply]
  simp only [truncf_apply, addf_apply, mulf_apply, shapeCast_1ab_ab_apply, shapeCast_a_1a_apply]
  rfl

/-- The second layer's noise block times its standard deviations, at (i, j). -/
theorem pay3_at (v28 : FVec Ideal S1x1024x1024 .f32) (v30 : FVec Ideal S1024x1024 .f32) (i j : Fin 1024) :
    k0_pay3 (F := Ideal) v28 v30 (ix2 i j) = v28 (ix3 (0 : Fin 1) i j) * v30 (ix2 i j) := by
  unfold k0_pay3
  simp only [shapeCast_self, mulf_apply, shapeCast_1ab_ab_apply]

/-- Second hidden layer at (b, j): the clipped sum over the 1024 first-layer activations a(b,i) times the sampled
    weight (scaled noise plus mean), plus the sampled bias. -/
theorem pay4_at (v32 v33 : FVec Ideal S1024x1024 .f32) (v35 : FVec Ideal S1x1x1024 .f32) (v37 v41 : FVec Ideal S1024 .f32)
    (v44 : FVec Ideal S1024x1024 .bf16) (b j : Fin 1024) :
    k0_pay4 (F := Ideal) v32 v33 v35 v37 v41 v44 (ix2 b j)
      = max ((∑ i : Fin 1024, v44 (ix2 b i) * (v32 (ix2 i j) + v33 (ix2 i j)))
              + (v35 (ix3 (0 : Fin 1) (0 : Fin 1) j) * v37 (ix1 j) + v41 (ix1 j))) BnnSpec.zero := by
  unfold k0_pay4
  simp only [shapeCast_self, maximumf_apply, addf_apply, truncf_apply, broadcast_apply, matmul]
  rw [dot1_eq, PlainMatmul.plain_matmul_zero_apply, broadcastTo_1b_ab_apply]
  simp only [truncf_apply, addf_apply, mulf_apply, shapeCast_1ab_ab_apply, shapeCast_a_1a_apply]
  rfl

/-- The output layer's sampled weight at (j, o): noise block times standard deviation plus mean. -/
theorem pay5_at (v55 : FVec Ideal S1x1024x10 .f32) (v57 v60 : FVec Ideal S1024x10 .f32) (j : Fin 1024) (o : Fin 10) :
    k0_pay5 (F := Ideal) v55 v57 v60 (ix2 j o) = v55 (ix3 (0 : Fin 1) j o) * v57 (ix2 j o) + v60 (ix2 j o) := by
  unfold k0_pay5
  simp only [shapeCast_self, addf_apply, mulf_apply, shapeCast_1ab_ab_apply]

/-- The output layer's bias noise times its standard deviation, at column o of the one-row layout. -/
theorem pay6_at (v62 : FVec Ideal S1x1x10 .f32) (v64 : FVec Ideal S10 .f32) (u : Fin 1) (o : Fin 10) :
    k0_pay6 (F := Ideal) v62 v64 (ix2 u o) = v62 (ix3 (0 : Fin 1) u o) * v64 (ix1 o) := by
  unfold k0_pay6
  simp only [shapeCast_self, mulf_apply, shapeCast_1ab_ab_apply, shapeCast_a_1a_apply]

/-- Output layer at (b, o) of the one-sample block: the sum over the 1024 second-layer activations a(b,j) times the
    sampled weight w(j,o), plus the bias row (scaled noise plus mean). -/
theorem pay1_at (v61 : FVec Ideal S1024x10 .f32) (v67 : FVec Ideal S1x10 .f32) (v68 : FVec Ideal S10 .f32)
    (v71 : FVec Ideal S1024x1024 .bf16) (u : Fin 1) (b : Fin 1024) (o : Fin 10) :
    k0_pay1 (F := Ideal) v61 v67 v68 v71 (ix3 u b o)
      = (∑ j : Fin 1024, v71 (ix2 b j) * v61 (ix2 j o)) + (v67 (ix2 (0 : Fin 1) o) + v68 (ix1 o)) := by
  unfold k0_pay1
  rw [shapeCast_ab_1ab_apply]
  simp only [addf_apply, matmul]
  rw [dot2_eq, PlainMatmul.plain_matmul_zero_apply, broadcastTo_1b_ab_apply]
  simp only [truncf_apply, addf_apply, shapeCast_a_1a_apply]

end Cert.KernelIdeal.Bnn

end
-- ==== Proof.BodySpec.lean ====
/-
  One grid step computes one sample's slice of the specification.

  If the step's operands are what the launch stages for sample s — the batch and the mean arrays themselves, the
  standard deviations exp(logvar / 2), and for each noise array its slab of sample s — then the composition of the three
  layers' arithmetic, read at entry (0, b, o) of the output block, is the specification's output layer of sample s at
  batch row b, class o: the same nested sums, term by term.
-/
import proofs.«168684_j36532991820264_2_alg».proof.Proof.PayloadAt

noncomputable section

namespace Cert.KernelIdeal.Bnn

open Cert.KernelIdeal Cert.KernelIdeal.Gen Idealize.ShloMosaic Idealize.ShloMosaic.ValueIdx

/-- The standard deviation computed before the launch, at an entry: exp of one half times the log-variance there. -/
theorem sd_at {S : Shape} (bc : S_.BroadcastsInDim S ![]) (lv : FVec Ideal S .f32) (i : S.Idx) :
    Host.exp (mulf (broadcastInDim S ![] bc (constant (F := Ideal) S_ .f32 0x3F000000#32)) lv) i
      = Ideal.exp (BnnSpec.half * lv i) := by
  show FloatOps.hostUnary .exp (FloatOps.mulf (broadcastInDim S ![] bc (constant (F := Ideal) S_ .f32 0x3F000000#32) i) (lv i)) = _
  rw [broadcastInDim_apply _ bc _ i ix0 (fun a => a.elim0)]
  rfl

/-- The step's output block at (u, b, o), for operands staged for sample s, is the specification's output layer of
    sample s at (b, o). -/
theorem body_logit (x : FVec Ideal S1024x784 .f32)
    (wm0 wv0 : FVec Ideal S784x1024 .f32) (bm0 bv0 : FVec Ideal S1024 .f32)
    (wm1 wv1 : FVec Ideal S1024x1024 .f32) (bm1 bv1 : FVec Ideal S1024 .f32)
    (wlm wlv : FVec Ideal S1024x10 .f32) (blm blv : FVec Ideal S10 .f32)
    (we0 : FVec Ideal S32x784x1024 .f32) (be0 : FVec Ideal S32x1x1024 .f32)
    (we1 : FVec Ideal S32x1024x1024 .f32) (be1 : FVec Ideal S32x1x1024 .f32)
    (wel : FVec Ideal S32x1024x10 .f32) (bel : FVec Ideal S32x1x10 .f32) (s : Fin 32)
    (x2 : FVec Ideal S784x1024 .f32) (x4 : FVec Ideal S1024 .f32) (x6 : FVec Ideal S1024x1024 .f32)
    (x8 : FVec Ideal S1024 .f32) (x10 : FVec Ideal S1024x10 .f32) (x12 : FVec Ideal S10 .f32)
    (x13 : FVec Ideal S1x784x1024 .f32) (x14 : FVec Ideal S1x1x1024 .f32) (x15 : FVec Ideal S1x1024x1024 .f32)
    (x16 : FVec Ideal S1x1x1024 .f32) (x17 : FVec Ideal S1x1024x10 .f32) (x18 : FVec Ideal S1x1x10 .f32)
    (h2 : ∀ k i, x2 (ix2 k i) = Ideal.exp (BnnSpec.half * wv0 (ix2 k i)))
    (h4 : ∀ i, x4 (ix1 i) = Ideal.exp (BnnSpec.half * bv0 (ix1 i)))
    (h6 : ∀ i j, x6 (ix2 i j) = Ideal.exp (BnnSpec.half * wv1 (ix2 i j)))
    (h8 : ∀ j, x8 (ix1 j) = Ideal.exp (BnnSpec.half * bv1 (ix1 j)))
    (h10 : ∀ j o, x10 (ix2 j o) = Ideal.exp (BnnSpec.half * wlv (ix2 j o)))
    (h12 : ∀ o, x12 (ix1 o) = Ideal.exp (BnnSpec.half * blv (ix1 o)))
    (h13 : ∀ k i, x13 (ix3 (0 : Fin 1) k i) = we0 (ix3 s k i))
    (h14 : ∀ u i, x14 (ix3 (0 : Fin 1) u i) = be0 (ix3 s u i))
    (h15 : ∀ i j, x15 (ix3 (0 : Fin 1) i j) = we1 (ix3 s i j))
    (h16 : ∀ u j, x16 (ix3 (0 : Fin 1) u j) = be1 (ix3 s u j))
    (h17 : ∀ j o, x17 (ix3 (0 : Fin 1) j o) = wel (ix3 s j o))
    (h18 : ∀ u o, x18 (ix3 (0 : Fin 1) u o) = bel (ix3 s u o))
    (y : S1x1024x10.Idx) :
    k0_pay1 (F := Ideal) (k0_pay5 (F := Ideal) x17 x10 wlm) (k0_pay6 (F := Ideal) x18 x12) blm
        (k0_pay4 (F := Ideal) (k0_pay3 (F := Ideal) x15 x6) wm1 x16 x8 bm1 (k0_pay2 (F := Ideal) x13 x2 wm0 x14 x4 bm0 x)) y
      = BnnSpec.logit x wm0 wv0 bm0 bv0 wm1 wv1 bm1 bv1 wlm wlv blm blv we0 be0 we1 be1 wel bel s (y 1) (y 2) := by
  obtain ⟨u, b, o, rfl⟩ : ∃ (u : Fin 1) (b : Fin 1024) (o : Fin 10), y = ix3 u b o := ⟨y 0, y 1, y 2, eq_ix3 y⟩
  show _ = BnnSpec.logit x wm0 wv0 bm0 bv0 wm1 wv1 bm1 bv1 wlm wlv blm blv we0 be0 we1 be1 wel bel s b o
  simp only [pay1_at, pay2_at, pay3_at, pay4_at, pay5_at, pay6_at, h2, h4, h6, h8, h10, h12, h13, h14, h15, h16, h17, h18,
    BnnSpec.logit, BnnSpec.act1, BnnSpec.act0, BnnSpec.sample]

end Cert.KernelIdeal.Bnn

end
-- ==== Proof.KernelValue.lean ====
/-
  From the grid steps to the whole result array.

  At grid point t the output window is the slab of sample t, so what the step writes back is that slab of the
  specification (the step's operands are the ones staged for sample t). The 32 slabs are disjoint and together fill the
  result array — the point that covers entry (s, b, o) is s —, so after the run the result array is the specification
  of the launch memory's argument arrays, and the arguments are unchanged.
-/
import proofs.«168684_j36532991820264_2_alg».proof.Proof.Gen.KernelIdeal.Value
import proofs.«168684_j36532991820264_2_alg».proof.Proof.BodyValue
import proofs.«168684_j36532991820264_2_alg».proof.Proof.KernelBlocks
import proofs.«168684_j36532991820264_2_alg».proof.Proof.BodySpec

set_option maxRecDepth 16384

noncomputable section

namespace Cert.KernelIdeal.Bnn

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification of the launch memory's nineteen argument arrays. -/
def result (c : Dev nD) : FVec Ideal S32x1024x10 .f32 :=
  BnnSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- What grid point t writes back is sample t's slab of the specification. -/
theorem flushed_eq (c : Dev nD) (t : Fin cfg0.N) :
    (dats m 0 c).flushed 19 t = ((cfg0.win 19).blk t).view.read (Elt Ideal) (result m c) := by
  have ht : t.val < 32 := Nat.lt_of_lt_of_eq t.isLt N_0
  rw [Cert.KernelIdeal.Value.flushed19_A m c t, out_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)]
  rw [blk0 m c t, blk1 m c t, blk3 m c t, blk5 m c t, blk7 m c t, blk9 m c t, blk11 m c t,
    V_main_arg0 m c, V_main_arg1 m c, V_main_arg3 m c, V_main_arg5 m c, V_main_arg7 m c, V_main_arg9 m c, V_main_arg11 m c]
  funext y
  refine (body_logit (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (⟨t.val, ht⟩ : Fin 32)
      (iblk m c 2 t) (iblk m c 4 t) (iblk m c 6 t) (iblk m c 8 t) (iblk m c 10 t) (iblk m c 12 t)
      (iblk m c 13 t) (iblk m c 14 t) (iblk m c 15 t) (iblk m c 16 t) (iblk m c 17 t) (iblk m c 18 t)
      (fun k i => (congrFun (blk2 m c t) _).trans ((congrFun (V_v2 m c) _).trans (sd_at _ _ _)))
      (fun i => (congrFun (blk4 m c t) _).trans ((congrFun (V_v5 m c) _).trans (sd_at _ _ _)))
      (fun i j => (congrFun (blk6 m c t) _).trans ((congrFun (V_v8 m c) _).trans (sd_at _ _ _)))
      (fun j => (congrFun (blk8 m c t) _).trans ((congrFun (V_v11 m c) _).trans (sd_at _ _ _)))
      (fun j o => (congrFun (blk10 m c t) _).trans ((congrFun (V_v14 m c) _).trans (sd_at _ _ _)))
      (fun o => (congrFun (blk12 m c t) _).trans ((congrFun (V_v17 m c) _).trans (sd_at _ _ _)))
      (fun k i => (blk13 m c t ⟨t.val, ht⟩ rfl k i).trans (congrFun (V_main_arg13 m c) _))
      (fun u i => (blk14 m c t ⟨t.val, ht⟩ rfl u i).trans (congrFun (V_main_arg14 m c) _))
      (fun i j => (blk15 m c t ⟨t.val, ht⟩ rfl i j).trans (congrFun (V_main_arg15 m c) _))
      (fun u j => (blk16 m c t ⟨t.val, ht⟩ rfl u j).trans (congrFun (V_main_arg16 m c) _))
      (fun j o => (blk17 m c t ⟨t.val, ht⟩ rfl j o).trans (congrFun (V_main_arg17 m c) _))
      (fun u o => (blk18 m c t ⟨t.val, ht⟩ rfl u o).trans (congrFun (V_main_arg18 m c) _))
      ((cfg0.win 19).xinj (grid0.coords t) y)).trans ?_
  rw [View.read_apply]
  unfold result BnnSpec.G
  have h0 : (y 0).val < 1 := (y 0).isLt
  have e0 : (((cfg0.win 19).blk t).view.emb y) 0 = (⟨t.val, ht⟩ : Fin 32) :=
    Fin.ext (by show win0_19.index t (0 : Fin 3) * 1 + 1 * (y 0).val = t.val; rw [(idx19 t).1]; omega)
  have e1 : (((cfg0.win 19).blk t).view.emb y) 1 = ((cfg0.win 19).xinj (grid0.coords t) y) 1 :=
    Fin.ext (by show win0_19.index t (1 : Fin 3) * 1024 + 1 * (y 1).val = (y 1).val; rw [(idx19 t).2.1]; omega)
  have e2 : (((cfg0.win 19).blk t).view.emb y) 2 = ((cfg0.win 19).xinj (grid0.coords t) y) 2 :=
    Fin.ext (by show win0_19.index t (2 : Fin 3) * 10 + 1 * (y 2).val = (y 2).val; rw [(idx19 t).2.2]; omega)
  rw [e0, e1, e2]
  first | rfl | exact (cast_eq _ _).symm | simp only [cast_eq]

/-- An entry of the result array lies in point t's block exactly when each coordinate lies in the block's range. -/
theorem mem_blk19 (t : Fin cfg0.N) (i : S32x1024x10.Idx) :
    i ∈ ((cfg0.win 19).blk t).view.set ↔ ∀ a : Fin 3, win0_19.index t a * S1x1024x10.size a ≤ (i a).val
      ∧ (i a).val < win0_19.index t a * S1x1024x10.size a + S1x1024x10.size a := by
  show i ∈ ((View.whole main_v18).slice (win0_19.rect t)).set ↔ _
  rw [View.set_slice_whole, Rect.mem_set_unit]
  exact Iff.rfl

/-- Every entry (s, b, o) of the result array is in the block of grid point s. -/
theorem cover19 (i : S32x1024x10.Idx) :
    ∃ t : Fin cfg0.N, (cfg0.win 19).flush t = true ∧ i ∈ ((cfg0.win 19).blk t).view.set := by
  have h0 : (i 0).val < 32 := (i 0).isLt
  have h1 : (i 1).val < 1024 := (i 1).isLt
  have h2 : (i 2).val < 10 := (i 2).isLt
  obtain ⟨t, ht⟩ : ∃ t : Fin cfg0.N, t.val = (i 0).val := ⟨⟨(i 0).val, Nat.lt_of_lt_of_eq h0 N_0.symm⟩, rfl⟩
  refine ⟨t, flush0_19 t, ?_⟩
  rw [mem_blk19]
  intro a
  match a with
  | ⟨0, _⟩ =>
    show win0_19.index t (0 : Fin 3) * 1 ≤ (i 0).val ∧ (i 0).val < win0_19.index t (0 : Fin 3) * 1 + 1
    rw [(idx19 t).1]; omega
  | ⟨1, _⟩ =>
    show win0_19.index t (1 : Fin 3) * 1024 ≤ (i 1).val ∧ (i 1).val < win0_19.index t (1 : Fin 3) * 1024 + 1024
    rw [(idx19 t).2.1]; omega
  | ⟨2, _⟩ =>
    show win0_19.index t (2 : Fin 3) * 10 ≤ (i 2).val ∧ (i 2).val < win0_19.index t (2 : Fin 3) * 10 + 10
    rw [(idx19 t).2.2]; omega

/-- After the run the result array is the specification of the argument arrays. -/
theorem final (c : Dev nD) : (dats m 0 c).arrAt 19 cfg0.N = result m c :=
  (dats m 0 c).arrAt_eq_of_cover 19 (result m c) (fun t _ => flushed_eq m c t) cover19

/-- Every weakly fair execution of the kernel's program terminates with the result array at the specification of the
    argument arrays and the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final m c), (h c).2⟩)
    (Cert.KernelIdeal.Value.run_blocks m ρ)

end Cert.KernelIdeal.Bnn

end
-- ==== Proof.RefIsSpec.lean ====
/-
  The reference program computes the specification.

  The reference evaluates, for each of the 32 weight samples, a three-layer perceptron whose weights and biases are
  reparameterized draws  noise * exp(logvar / 2) + mean.  Every broadcast in it only repeats an array along the sample
  axis or along the batch axis, so an entry of a broadcast array is an entry of its operand at the coordinates that are
  kept; every contraction is a finite sum over the contracted coordinate.  Reading the program's last array at an entry
  (s, b, o) and following each operation back to the argument arrays therefore gives, term by term, the nested sums of
  the specification.
-/
import proofs.«168684_j36532991820264_2_alg».proof.Proof.Gen.ReferenceIdeal.Read
import proofs.«168684_j36532991820264_2_alg».proof.Proof.Spec

noncomputable section

namespace BnnRef

open Cert.ReferenceIdeal Cert.ReferenceIdeal.Read Idealize.ShloMosaic Idealize.ShloMosaic.ValueIdx

/-! ## The sampled weights and biases

Each is  noise * exp(one half * logvar) + mean : the log-variance and the mean are repeated along the sample axis (and a
bias has a middle axis of size one), so at sample s they are read at the remaining coordinates. -/

/-- The first layer's sampled weight at sample s, input k, unit i. -/
theorem w0_at (x1 x2 : FVec Ideal S784x1024 .f32) (x13 : FVec Ideal S32x784x1024 .f32)
    (s : Fin 32) (k : Fin 784) (i : Fin 1024) :
    val_main_v10 (F := Ideal) x1 x2 x13 (ix3 s k i)
      = BnnSpec.sample (x13 (ix3 s k i)) (x2 (ix2 k i)) (x1 (ix2 k i)) := by
  have e6 : idx_main_v5 (idx_main_v6 (ix3 s k i)) = ix2 k i :=
    funext fun a => by match a with | ⟨0, _⟩ => rfl | ⟨1, _⟩ => rfl
  have e9 : idx_main_v8 (idx_main_v9 (ix3 s k i)) = ix2 k i :=
    funext fun a => by match a with | ⟨0, _⟩ => rfl | ⟨1, _⟩ => rfl
  rw [val_main_v10_apply, val_main_v7_apply, val_main_v6_apply, val_main_v5_apply, e6, val_main_v4_apply,
    val_main_v3_apply, val_main_v2_apply, val_main_cst_apply, val_main_v9_apply, val_main_v8_apply, e9]
  rfl

/-- The first layer's sampled bias at sample s, unit i. -/
theorem b0_at (x3 x4 : FVec Ideal S1024 .f32) (x14 : FVec Ideal S32x1x1024 .f32)
    (s : Fin 32) (i : Fin 1024) :
    val_main_v19 (F := Ideal) x3 x4 x14 (ix3 s (0 : Fin 1) i)
      = BnnSpec.sample (x14 (ix3 s (0 : Fin 1) i)) (x4 (ix1 i)) (x3 (ix1 i)) := by
  have e15 : idx_main_v14 (idx_main_v15 (ix3 s (0 : Fin 1) i)) = ix1 i :=
    funext fun a => by match a with | ⟨0, _⟩ => rfl
  have e18 : idx_main_v17 (idx_main_v18 (ix3 s (0 : Fin 1) i)) = ix1 i :=
    funext fun a => by match a with | ⟨0, _⟩ => rfl
  rw [val_main_v19_apply, val_main_v16_apply, val_main_v15_apply, val_main_v14_apply, e15, val_main_v13_apply,
    val_main_v12_apply, val_main_v11_apply, val_main_cst_0_apply, val_main_v18_apply, val_main_v17_apply, e18]
  rfl

/-- The second layer's sampled weight at sample s, input i, unit j. -/
theorem w1_at (x5 x6 : FVec Ideal S1024x1024 .f32) (x15 : FVec Ideal S32x1024x1024 .f32)
    (s : Fin 32) (i j : Fin 1024) :
    val_main_v32 (F := Ideal) x5 x6 x15 (ix3 s i j)
      = BnnSpec.sample (x15 (ix3 s i j)) (x6 (ix2 i j)) (x5 (ix2 i j)) := by
  have e28 : idx_main_v27 (idx_main_v28 (ix3 s i j)) = ix2 i j :=
    funext fun a => by match a with | ⟨0, _⟩ => rfl | ⟨1, _⟩ => rfl
  have e31 : idx_main_v30 (idx_main_v31 (ix3 s i j)) = ix2 i j :=
    funext fun a => by match a with | ⟨0, _⟩ => rfl | ⟨1, _⟩ => rfl
  rw [val_main_v32_apply, val_main_v29_apply, val_main_v28_apply, val_main_v27_apply, e28, val_main_v26_apply,
    val_main_v25_apply, val_main_v24_apply, val_main_cst_1_apply, val_main_v31_apply, val_main_v30_apply, e31]
  rfl

/-- The second layer's sampled bias at sample s, unit j. -/
theorem b1_at (x7 x8 : FVec Ideal S1024 .f32) (x16 : FVec Ideal S32x1x1024 .f32)
    (s : Fin 32) (j : Fin 1024) :
    val_main_v41 (F := Ideal) x7 x8 x16 (ix3 s (0 : Fin 1) j)
      = BnnSpec.sample (x16 (ix3 s (0 : Fin 1) j)) (x8 (ix1 j)) (x7 (ix1 j)) := by
  have e37 : idx_main_v36 (idx_main_v37 (ix3 s (0 : Fin 1) j)) = ix1 j :=
    funext fun a => by match a with | ⟨0, _⟩ => rfl
  have e40 : idx_main_v39 (idx_main_v40 (ix3 s (0 : Fin 1) j)) = ix1 j :=
    funext fun a => by match a with | ⟨0, _⟩ => rfl
  rw [val_main_v41_apply, val_main_v38_apply, val_main_v37_apply, val_main_v36_apply, e37, val_main_v35_apply,
    val_main_v34_apply, val_main_v33_apply, val_main_cst_2_apply, val_main_v40_apply, val_main_v39_apply, e40]
  rfl

/-- The output layer's sampled weight at sample s, input j, class o. -/
theorem wl_at (x9 x10 : FVec Ideal S1024x10 .f32) (x17 : FVec Ideal S32x1024x10 .f32)
    (s : Fin 32) (j : Fin 1024) (o : Fin 10) :
    val_main_v54 (F := Ideal) x9 x10 x17 (ix3 s j o)
      = BnnSpec.sample (x17 (ix3 s j o)) (x10 (ix2 j o)) (x9 (ix2 j o)) := by
  have e50 : idx_main_v49 (idx_main_v50 (ix3 s j o)) = ix2 j o :=
    funext fun a => by match a with | ⟨0, _⟩ => rfl | ⟨1, _⟩ => rfl
  have e53 : idx_main_v52 (idx_main_v53 (ix3 s j o)) = ix2 j o :=
    funext fun a => by match a with | ⟨0, _⟩ => rfl | ⟨1, _⟩ => rfl
  rw [val_main_v54_apply, val_main_v51_apply, val_main_v50_apply, val_main_v49_apply, e50, val_main_v48_apply,
    val_main_v47_apply, val_main_v46_apply, val_main_cst_3_apply, val_main_v53_apply, val_main_v52_apply, e53]
  rfl

/-- The output layer's sampled bias at sample s, class o. -/
theorem bl_at (x11 x12 : FVec Ideal S10 .f32) (x18 : FVec Ideal S32x1x10 .f32)
    (s : Fin 32) (o : Fin 10) :
    val_main_v63 (F := Ideal) x11 x12 x18 (ix3 s (0 : Fin 1) o)
      = BnnSpec.sample (x18 (ix3 s (0 : Fin 1) o)) (x12 (ix1 o)) (x11 (ix1 o)) := by
  have e59 : idx_main_v58 (idx_main_v59 (ix3 s (0 : Fin 1) o)) = ix1 o :=
    funext fun a => by match a with | ⟨0, _⟩ => rfl
  have e62 : idx_main_v61 (idx_main_v62 (ix3 s (0 : Fin 1) o)) = ix1 o :=
    funext fun a => by match a with | ⟨0, _⟩ => rfl
  rw [val_main_v63_apply, val_main_v60_apply, val_main_v59_apply, val_main_v58_apply, e59, val_main_v57_apply,
    val_main_v56_apply, val_main_v55_apply, val_main_cst_4_apply, val_main_v62_apply, val_main_v61_apply, e62]
  rfl

/-! ## The input, repeated for every sample -/

/-- The batch repeated along the sample axis: at sample s it is the batch itself. -/
theorem x_at (x0 : FVec Ideal S1024x784 .f32) (s : Fin 32) (b : Fin 1024) (k : Fin 784) :
    val_main_v1 (F := Ideal) x0 (ix3 s b k) = x0 (ix2 b k) := by
  have e1 : idx_main_v0 (idx_main_v1 (ix3 s b k)) = ix2 b k :=
    funext fun a => by match a with | ⟨0, _⟩ => rfl | ⟨1, _⟩ => rfl
  rw [val_main_v1_apply, val_main_v0_apply, e1]

/-! ## The three layers

A contraction's entry (s, b, i) is the sum over the contracted coordinate k of the left operand at (s, b, k) times the
right operand at (s, k, i); the bias is repeated along the batch axis; the rectifier is the maximum with zero. -/

/-- The first hidden layer. -/
theorem act0_at (x0 : FVec Ideal S1024x784 .f32) (x1 x2 : FVec Ideal S784x1024 .f32) (x3 x4 : FVec Ideal S1024 .f32)
    (x13 : FVec Ideal S32x784x1024 .f32) (x14 : FVec Ideal S32x1x1024 .f32)
    (s : Fin 32) (b : Fin 1024) (i : Fin 1024) :
    val_main_v23 (F := Ideal) x0 x1 x2 x3 x4 x13 x14 (ix3 s b i)
      = BnnSpec.act0 x0 x1 x2 x3 x4 x13 x14 s b i := by
  have e21 : idx_main_v21 (ix3 s b i) = ix3 s (0 : Fin 1) i :=
    funext fun a => by match a with | ⟨0, _⟩ => rfl | ⟨1, _⟩ => rfl | ⟨2, _⟩ => rfl
  have el : ∀ k : Fin 784, lidx_main_v20 (ix3 s b i) k = ix3 s b k := fun k =>
    funext fun a => by match a with | ⟨0, _⟩ => rfl | ⟨1, _⟩ => rfl | ⟨2, _⟩ => rfl
  have er : ∀ k : Fin 784, ridx_main_v20 (ix3 s b i) k = ix3 s k i := fun k =>
    funext fun a => by match a with | ⟨0, _⟩ => rfl | ⟨1, _⟩ => rfl | ⟨2, _⟩ => rfl
  have hsum : (∑ k : Fin 784, val_main_v1 (F := Ideal) x0 (lidx_main_v20 (ix3 s b i) k)
        * val_main_v10 (F := Ideal) x1 x2 x13 (ridx_main_v20 (ix3 s b i) k))
      = ∑ k : Fin 784, x0 (ix2 b k) * BnnSpec.sample (x13 (ix3 s k i)) (x2 (ix2 k i)) (x1 (ix2 k i)) :=
    Finset.sum_congr rfl fun k _ => by rw [el k, er k, x_at, w0_at]
  rw [val_main_v23_apply, val_main_v22_apply, val_main_v20_apply, hsum, val_main_v21_apply, e21, b0_at,
    val_main_call0_v0_apply, val_main_call0_cst_apply]
  rfl

/-- The second hidden layer. -/
theorem act1_at (x0 : FVec Ideal S1024x784 .f32) (x1 x2 : FVec Ideal S784x1024 .f32) (x3 x4 : FVec Ideal S1024 .f32)
    (x5 x6 : FVec Ideal S1024x1024 .f32) (x7 x8 : FVec Ideal S1024 .f32)
    (x13 : FVec Ideal S32x784x1024 .f32) (x14 : FVec Ideal S32x1x1024 .f32)
    (x15 : FVec Ideal S32x1024x1024 .f32) (x16 : FVec Ideal S32x1x1024 .f32)
    (s : Fin 32) (b : Fin 1024) (j : Fin 1024) :
    val_main_v45 (F := Ideal) x0 x1 x2 x3 x4 x5 x6 x7 x8 x13 x14 x15 x16 (ix3 s b j)
      = BnnSpec.act1 x0 x1 x2 x3 x4 x5 x6 x7 x8 x13 x14 x15 x16 s b j := by
  have e43 : idx_main_v43 (ix3 s b j) = ix3 s (0 : Fin 1) j :=
    funext fun a => by match a with | ⟨0, _⟩ => rfl | ⟨1, _⟩ => rfl | ⟨2, _⟩ => rfl
  have el : ∀ i : Fin 1024, lidx_main_v42 (ix3 s b j) i = ix3 s b i := fun i =>
    funext fun a => by match a with | ⟨0, _⟩ => rfl | ⟨1, _⟩ => rfl | ⟨2, _⟩ => rfl
  have er : ∀ i : Fin 1024, ridx_main_v42 (ix3 s b j) i = ix3 s i j := fun i =>
    funext fun a => by match a with | ⟨0, _⟩ => rfl | ⟨1, _⟩ => rfl | ⟨2, _⟩ => rfl
  have hsum : (∑ i : Fin 1024, val_main_v23 (F := Ideal) x0 x1 x2 x3 x4 x13 x14 (lidx_main_v42 (ix3 s b j) i)
        * val_main_v32 (F := Ideal) x5 x6 x15 (ridx_main_v42 (ix3 s b j) i))
      = ∑ i : Fin 1024, BnnSpec.act0 x0 x1 x2 x3 x4 x13 x14 s b i
          * BnnSpec.sample (x15 (ix3 s i j)) (x6 (ix2 i j)) (x5 (ix2 i j)) :=
    Finset.sum_congr rfl fun i _ => by rw [el i, er i, act0_at, w1_at]
  rw [val_main_v45_apply, val_main_v44_apply, val_main_v42_apply, hsum, val_main_v43_apply, e43, b1_at,
    val_main_call1_v0_apply, val_main_call1_cst_apply]
  rfl

/-- The output layer. -/
theorem logit_at (x0 : FVec Ideal S1024x784 .f32) (x1 x2 : FVec Ideal S784x1024 .f32) (x3 x4 : FVec Ideal S1024 .f32)
    (x5 x6 : FVec Ideal S1024x1024 .f32) (x7 x8 : FVec Ideal S1024 .f32) (x9 x10 : FVec Ideal S1024x10 .f32)
    (x11 x12 : FVec Ideal S10 .f32) (x13 : FVec Ideal S32x784x1024 .f32) (x14 : FVec Ideal S32x1x1024 .f32)
    (x15 : FVec Ideal S32x1024x1024 .f32) (x16 : FVec Ideal S32x1x1024 .f32) (x17 : FVec Ideal S32x1024x10 .f32)
    (x18 : FVec Ideal S32x1x10 .f32) (s : Fin 32) (b : Fin 1024) (o : Fin 10) :
    val_main_v66 (F := Ideal) x0 x1 x2 x3 x4 x5 x6 x7 x8 x9 x10 x11 x12 x13 x14 x15 x16 x17 x18 (ix3 s b o)
      = BnnSpec.logit x0 x1 x2 x3 x4 x5 x6 x7 x8 x9 x10 x11 x12 x13 x14 x15 x16 x17 x18 s b o := by
  have e65 : idx_main_v65 (ix3 s b o) = ix3 s (0 : Fin 1) o :=
    funext fun a => by match a with | ⟨0, _⟩ => rfl | ⟨1, _⟩ => rfl | ⟨2, _⟩ => rfl
  have el : ∀ j : Fin 1024, lidx_main_v64 (ix3 s b o) j = ix3 s b j := fun j =>
    funext fun a => by match a with | ⟨0, _⟩ => rfl | ⟨1, _⟩ => rfl | ⟨2, _⟩ => rfl
  have er : ∀ j : Fin 1024, ridx_main_v64 (ix3 s b o) j = ix3 s j o := fun j =>
    funext fun a => by match a with | ⟨0, _⟩ => rfl | ⟨1, _⟩ => rfl | ⟨2, _⟩ => rfl
  have hsum : (∑ j : Fin 1024,
        val_main_v45 (F := Ideal) x0 x1 x2 x3 x4 x5 x6 x7 x8 x13 x14 x15 x16 (lidx_main_v64 (ix3 s b o) j)
        * val_main_v54 (F := Ideal) x9 x10 x17 (ridx_main_v64 (ix3 s b o) j))
      = ∑ j : Fin 1024, BnnSpec.act1 x0 x1 x2 x3 x4 x5 x6 x7 x8 x13 x14 x15 x16 s b j
          * BnnSpec.sample (x17 (ix3 s j o)) (x10 (ix2 j o)) (x9 (ix2 j o)) :=
    Finset.sum_congr rfl fun j _ => by rw [el j, er j, act1_at, wl_at]
  rw [val_main_v66_apply, val_main_v64_apply, hsum, val_main_v65_apply, e65, bl_at]
  rfl

/-! ## The whole array -/

/-- The reference program's result is the specification's array. -/
theorem ref_eq_spec (x0 : FVec Ideal S1024x784 .f32) (x1 x2 : FVec Ideal S784x1024 .f32) (x3 x4 : FVec Ideal S1024 .f32)
    (x5 x6 : FVec Ideal S1024x1024 .f32) (x7 x8 : FVec Ideal S1024 .f32) (x9 x10 : FVec Ideal S1024x10 .f32)
    (x11 x12 : FVec Ideal S10 .f32) (x13 : FVec Ideal S32x784x1024 .f32) (x14 : FVec Ideal S32x1x1024 .f32)
    (x15 : FVec Ideal S32x1024x1024 .f32) (x16 : FVec Ideal S32x1x1024 .f32) (x17 : FVec Ideal S32x1024x10 .f32)
    (x18 : FVec Ideal S32x1x10 .f32) :
    Cert.ReferenceIdeal.Read.val_main_v66 (F := Ideal) x0 x1 x2 x3 x4 x5 x6 x7 x8 x9 x10 x11 x12 x13 x14 x15 x16 x17 x18
      = BnnSpec.G x0 x1 x2 x3 x4 x5 x6 x7 x8 x9 x10 x11 x12 x13 x14 x15 x16 x17 x18 := by
  funext i
  obtain ⟨s, b, o, rfl⟩ : ∃ (s : Fin 32) (b : Fin 1024) (o : Fin 10), i = ix3 s b o := ⟨i 0, i 1, i 2, eq_ix3 i⟩
  exact logit_at x0 x1 x2 x3 x4 x5 x6 x7 x8 x9 x10 x11 x12 x13 x14 x15 x16 x17 x18 s b o

end BnnRef

end
-- ==== Proof.lean ====
/-
  A Bayesian three-layer perceptron, evaluated for 32 weight samples: the kernel against its reference.

  For every sample s the weights and biases of the three layers are reparameterized draws
  noise * exp(logvar / 2) + mean, and the network is  relu, relu, linear  on a 1024 × 784 batch. The kernel computes the
  standard deviations exp(logvar / 2) once before its launch and then, at grid point s, the whole network for sample s
  from the slabs of the noise arrays, keeping the hidden activations in a scratch buffer; the reference computes all 32
  networks by batched contractions. Over the extended reals both end with the same array: entry (s, b, o) is the
  specification's nested sum (Proof/Spec.lean).

    Proof/BodyValue.lean    one grid step leaves, in the output block, the three layers' arithmetic of its input blocks
    Proof/PayloadAt.lean    that arithmetic read at an entry: matrix products as sums, casts and broadcasts as re-indexing
    Proof/BodySpec.lean     for operands staged for sample s it is the specification's slab of sample s
    Proof/KernelBlocks.lean what each window's block holds at each grid point
    Proof/KernelValue.lean  the 32 slabs fill the result array: the kernel's run ends at the specification
    Proof/RefIsSpec.lean    the reference's last array is the specification
    Proof/Lib*.lean         general facts about whole-buffer loads and stores, plain matrix products, row layouts

  The equality needs no finiteness: the two sides are the same sums of the same products, term by term; the frame
  claims are the generated frame runs, and the idealized kernel is the printed kernel read over the extended reals.
-/
import proofs.«168684_j36532991820264_2_alg».proof.Defs
import proofs.«168684_j36532991820264_2_alg».proof.Proof.Gen.Kernel
import proofs.«168684_j36532991820264_2_alg».proof.Proof.Gen.Kernel.Skeleton
import proofs.«168684_j36532991820264_2_alg».proof.Proof.Gen.Kernel.Launch
import proofs.«168684_j36532991820264_2_alg».proof.Proof.Gen.Kernel.Points
import proofs.«168684_j36532991820264_2_alg».proof.Proof.Gen.Kernel.Frame
import proofs.«168684_j36532991820264_2_alg».proof.Proof.Gen.KernelIdeal
import proofs.«168684_j36532991820264_2_alg».proof.Proof.Gen.KernelIdeal.Skeleton
import proofs.«168684_j36532991820264_2_alg».proof.Proof.Gen.KernelIdeal.Launch
import proofs.«168684_j36532991820264_2_alg».proof.Proof.Gen.KernelIdeal.Points
import proofs.«168684_j36532991820264_2_alg».proof.Proof.Gen.KernelIdeal.Frame
import proofs.«168684_j36532991820264_2_alg».proof.Proof.Gen.ReferenceIdeal
import proofs.«168684_j36532991820264_2_alg».proof.Proof.Gen.KernelIdeal.Value
import proofs.«168684_j36532991820264_2_alg».proof.Proof.Gen.ReferenceIdeal.Run
import proofs.«168684_j36532991820264_2_alg».proof.Proof.Gen.ReferenceIdeal.Read
import proofs.«168684_j36532991820264_2_alg».proof.Proof.Gen.Pre_finite_inputs
import proofs.«168684_j36532991820264_2_alg».proof.Proof.Spec
import proofs.«168684_j36532991820264_2_alg».proof.Proof.KernelValue
import proofs.«168684_j36532991820264_2_alg».proof.Proof.RefIsSpec
import Idealize.ShloMosaic.Adequacy
import Idealize.ShloMosaic.Init

noncomputable section

namespace Cert.Proof

open Idealize.ShloMosaic Idealize.SL.Sem

/-- The printed kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The reference runs and leaves its arguments unchanged: its run, with what it says about the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the printed kernel's own text read over the extended reals: nothing was rewritten. -/
theorem preserves : Cert.preserves_Kernel_KernelIdeal := trivial

/-- From memories that agree on the nineteen arguments, the kernel's result array ends at the specification of its
    arguments and the reference's last array at the specification of its own: the same array. -/
theorem algebraic : Cert.algebraic_KernelIdeal_ReferenceIdeal := by
  intro m ρ m' ρ' _ hagree
  refine ⟨fun c => Cert.KernelIdeal.Bnn.result m c, Cert.KernelIdeal.Bnn.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18⟩ := hagree c
  rw [Cert.ReferenceIdeal.Read.val_main_v66_eq, BnnRef.ref_eq_spec, a0, a1, a2, a3, a4, a5, a6, a7, a8, a9, a10, a11,
    a12, a13, a14, a15, a16, a17, a18]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
